-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x1024 : Shape := ⟨3, ![32, 1024, 1024]⟩
abbrev S32768x1024 : Shape := ⟨2, ![32768, 1024]⟩
abbrev S1024x1024 : Shape := ⟨2, ![1024, 1024]⟩
abbrev S1024x2048 : Shape := ⟨2, ![1024, 2048]⟩
abbrev S_ : Shape := ⟨0, ![]⟩

class Facts : Prop where
  bcast_S_S32x1024x1024 : S_.BroadcastsInDim S32x1024x1024 (![] : Fin 0 → Fin S32x1024x1024.rank)
  reducesTo_S32x1024x1024_S_d0_1_2 : S32x1024x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024x2048 : S_.BroadcastsInDim S1024x2048 (![] : Fin 0 → Fin S1024x2048.rank)
  reducesTo_S1024x2048_S_d0_1 : S1024x2048.ReducesTo [0, 1] S_
  bcast_S_S32768x1024 : S_.BroadcastsInDim S32768x1024 (![] : Fin 0 → Fin S32768x1024.rank)
  reducesTo_S32768x1024_S_d0_1 : S32768x1024.ReducesTo [0, 1] S_

variable [Facts]

def fn_part1 {F : FTy → Type} [FloatOps F] (main_arg2 : IVec S32768x1024 32) (main_v13 : IVec S_ 1) (main_v16 : IVec S1024x2048 1) : IVec S_ 1 :=
  let main_c_5 : IVec S_ 1 := constantI S_ 1 1#1
  let main_v17 : IVec S_ 1 := (fun x v => Host.reduce IntOp.andi x v reducesTo_S1024x2048_S_d0_1 h_S_) main_v16 main_c_5
  let main_v18 : IVec S_ 1 := andi main_v13 main_v17
  let main_c_6 : IVec S_ 32 := constantI S_ 32 0#32
  let main_v19 : IVec S32768x1024 32 := broadcastInDim S32768x1024 ![] bcast_S_S32768x1024 main_c_6
  let main_v20 : IVec S32768x1024 1 := cmpi .eq main_arg2 main_v19
  let main_c_7 : IVec S_ 32 := constantI S_ 32 1#32
  let main_v21 : IVec S32768x1024 32 := broadcastInDim S32768x1024 ![] bcast_S_S32768x1024 main_c_7
  let main_v22 : IVec S32768x1024 1 := cmpi .eq main_arg2 main_v21
  let main_v23 : IVec S32768x1024 1 := ori main_v20 main_v22
  let main_c_8 : IVec S_ 1 := constantI S_ 1 1#1
  let main_v24 : IVec S_ 1 := (fun x v => Host.reduce IntOp.andi x v reducesTo_S32768x1024_S_d0_1 h_S_) main_v23 main_c_8
  let main_v25 : IVec S_ 1 := andi main_v18 main_v24
  main_v25

def fn {F : FTy → Type} [FloatOps F] (main_arg0 : FVec F S32x1024x1024 .f32) (main_arg1 : FVec F S32x1024x1024 .f32) (main_arg2 : IVec S32768x1024 32) (main_arg3 : FVec F S1024x1024 .f32) (main_arg4 : FVec F S1024x2048 .f32) : IVec S_ 1 :=
  let main_v0 : FVec F S32x1024x1024 .f32 := Host.absf main_arg0
  let main_cst : FVec F S_ .f32 := constant S_ .f32 0x7F800000#32
  let main_v1 : FVec F S32x1024x1024 .f32 := broadcastInDim S32x1024x1024 ![] bcast_S_S32x1024x1024 main_cst
  let main_v2 : IVec S32x1024x1024 1 := cmpf .olt main_v0 main_v1
  let main_c : IVec S_ 1 := constantI S_ 1 1#1
  let main_v3 : IVec S_ 1 := (fun x v => Host.reduce IntOp.andi x v reducesTo_S32x1024x1024_S_d0_1_2 h_S_) main_v2 main_c
  let main_v4 : FVec F S32x1024x1024 .f32 := Host.absf main_arg1
  let main_cst_0 : FVec F S_ .f32 := constant S_ .f32 0x7F800000#32
  let main_v5 : FVec F S32x1024x1024 .f32 := broadcastInDim S32x1024x1024 ![] bcast_S_S32x1024x1024 main_cst_0
  let main_v6 : IVec S32x1024x1024 1 := cmpf .olt main_v4 main_v5
  let main_c_1 : IVec S_ 1 := constantI S_ 1 1#1
  let main_v7 : IVec S_ 1 := (fun x v => Host.reduce IntOp.andi x v reducesTo_S32x1024x1024_S_d0_1_2 h_S_) main_v6 main_c_1
  let main_v8 : IVec S_ 1 := andi main_v3 main_v7
  let main_v9 : FVec F S1024x1024 .f32 := Host.absf main_arg3
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x2048 .f32 := Host.absf main_arg4
  let main_cst_4 : FVec F S_ .f32 := constant S_ .f32 0x7F800000#32
  let main_v15 : FVec F S1024x2048 .f32 := broadcastInDim S1024x2048 ![] bcast_S_S1024x2048 main_cst_4
  let main_v16 : IVec S1024x2048 1 := cmpf .olt main_v14 main_v15
  fn_part1 (F := F) main_arg2 main_v13 main_v16
-- ==== Kernel.lean ====
abbrev S32x1024x1024 : Shape := ⟨3, ![32, 1024, 1024]⟩
abbrev S32768x1024 : Shape := ⟨2, ![32768, 1024]⟩
abbrev S1024x1024 : Shape := ⟨2, ![1024, 1024]⟩
abbrev S1024x2048 : Shape := ⟨2, ![1024, 2048]⟩
abbrev S1x256x1024 : Shape := ⟨3, ![1, 256, 1024]⟩
abbrev S1x1024x1024 : Shape := ⟨3, ![1, 1024, 1024]⟩
abbrev S256x1024 : Shape := ⟨2, ![256, 1024]⟩
abbrev S256 : Shape := ⟨1, ![256]⟩
abbrev S256x1 : Shape := ⟨2, ![256, 1]⟩

abbrev nBuf : Space → Nat
  | .hbm => 12
  | .vmem => 11
  | .smem => 0
  | _ => 0

abbrev bufTy : (tb : Table) → Fin (tcTables nBuf tb) → BufTy
  | .hbm, ⟨0, _⟩ => ⟨S32x1024x1024, .f32⟩
  | .hbm, ⟨1, _⟩ => ⟨S32x1024x1024, .f32⟩
  | .hbm, ⟨2, _⟩ => ⟨S32768x1024, .i32⟩
  | .hbm, ⟨3, _⟩ => ⟨S1024x1024, .f32⟩
  | .hbm, ⟨4, _⟩ => ⟨S1024x2048, .f32⟩
  | .hbm, ⟨5, _⟩ => ⟨S1024x1024, .bf16⟩
  | .hbm, ⟨6, _⟩ => ⟨S1024x1024, .f32⟩
  | .hbm, ⟨7, _⟩ => ⟨S1024x1024, .bf16⟩
  | .hbm, ⟨8, _⟩ => ⟨S1024x1024, .f32⟩
  | .hbm, ⟨9, _⟩ => ⟨S1024x1024, .bf16⟩
  | .hbm, ⟨10, _⟩ => ⟨S32x1024x1024, .i32⟩
  | .hbm, ⟨11, _⟩ => ⟨S32x1024x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x256x1024, .i32⟩
  | .local _ .vmem, ⟨5, _⟩ => ⟨S1x256x1024, .i32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1x256x1024, .f32⟩
  | .local _ .vmem, ⟨10, _⟩ => ⟨S1x256x1024, .f32⟩
  | _, _ => ⟨S32x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  bitsLt_bf16_f32 : FTy.bits .bf16 < FTy.bits .f32
  slices_S1024x2048_S1024x1024_0_0 : S1024x2048.Slices ![0, 0] S1024x1024
  slices_S1024x2048_S1024x1024_0_1024 : S1024x2048.Slices ![0, 1024] S1024x1024
  shapeCasts_S32768x1024_S32x1024x1024 : S32768x1024.ShapeCasts S32x1024x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  reduces_S256x1024_S256 : S256x1024.Reduces [1] S256
  shapeCasts_S256_S256x1 : S256.ShapeCasts S256x1
  broadcasts_S256x1_S256x1024 : S256x1.Broadcasts S256x1024
  shapeCasts_S256x1024_S1x256x1024 : S256x1024.ShapeCasts S1x256x1024
  dot_S256x1024_S1024x1024_S256x1024_1_1_0_0_n_n_wf : DotDims.WF S256x1024 S1024x1024 S256x1024 [1] [1] [0] [0] [] []
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S32x1024x1024.size a
  hwx0_0 : ∀ i : grid0.Coords, EltTy.bits .f32 = 32 ∨ (Rect.block (s := S32x1024x1024) S1x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S32x1024x1024.size a
  hwx0_1 : ∀ i : grid0.Coords, EltTy.bits .f32 = 32 ∨ (Rect.block (s := S32x1024x1024) S1x1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x1024.size a ≤ S32x1024x1024.size a
  hwx0_2 : ∀ i : grid0.Coords, EltTy.bits .i32 = 32 ∨ (Rect.block (s := S32x1024x1024) S1x256x1024.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256x1024.size a ≤ S32x1024x1024.size a
  hwx0_6 : ∀ i : grid0.Coords, EltTy.bits .f32 = 32 ∨ (Rect.block (s := S32x1024x1024) S1x256x1024.size (cc0_transform_6 i) (hinb0_6 i)).WholeWords (EltTy.packing .f32)

variable [Facts₀]

def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x256x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S32x1024x1024 : Shape := ⟨3, ![32, 1024, 1024]⟩
abbrev S32768x1024 : Shape := ⟨2, ![32768, 1024]⟩
abbrev S1024x1024 : Shape := ⟨2, ![1024, 1024]⟩
abbrev S1024x2048 : Shape := ⟨2, ![1024, 2048]⟩
abbrev S_ : Shape := ⟨0, ![]⟩
abbrev S32x1024 : Shape := ⟨2, ![32, 1024]⟩
abbrev S32x1024x1 : Shape := ⟨3, ![32, 1024, 1]⟩
abbrev S32x1024x2048 : Shape := ⟨3, ![32, 1024, 2048]⟩

abbrev nBuf : Space → Nat
  | .hbm => 37
  | .vmem => 0
  | .smem => 0
  | _ => 0

abbrev bufTy : (tb : Table) → Fin (tcTables nBuf tb) → BufTy
  | .hbm, ⟨0, _⟩ => ⟨S32x1024x1024, .f32⟩
  | .hbm, ⟨1, _⟩ => ⟨S32x1024x1024, .f32⟩
  | .hbm, ⟨2, _⟩ => ⟨S32768x1024, .i32⟩
  | .hbm, ⟨3, _⟩ => ⟨S1024x1024, .f32⟩
  | .hbm, ⟨4, _⟩ => ⟨S1024x2048, .f32⟩
  | .hbm, ⟨5, _⟩ => ⟨S32x1024x1024, .f32⟩
  | .hbm, ⟨6, _⟩ => ⟨S32x1024x1024, .f32⟩
  | .hbm, ⟨7, _⟩ => ⟨S32768x1024, .f32⟩
  | .hbm, ⟨8, _⟩ => ⟨S32x1024x1024, .f32⟩
  | .hbm, ⟨9, _⟩ => ⟨S32x1024x1024, .f32⟩
  | .hbm, ⟨10, _⟩ => ⟨S_, .f32⟩
  | .hbm, ⟨11, _⟩ => ⟨S32x1024, .f32⟩
  | .hbm, ⟨12, _⟩ => ⟨S_, .f32⟩
  | .hbm, ⟨13, _⟩ => ⟨S32x1024, .f32⟩
  | .hbm, ⟨14, _⟩ => ⟨S32x1024, .f32⟩
  | .hbm, ⟨15, _⟩ => ⟨S32x1024x1, .f32⟩
  | .hbm, ⟨16, _⟩ => ⟨S32x1024x1024, .f32⟩
  | .hbm, ⟨17, _⟩ => ⟨S32x1024x1024, .f32⟩
  | .hbm, ⟨18, _⟩ => ⟨S32x1024x1024, .f32⟩
  | .hbm, ⟨19, _⟩ => ⟨S_, .f32⟩
  | .hbm, ⟨20, _⟩ => ⟨S32x1024, .f32⟩
  | .hbm, ⟨21, _⟩ => ⟨S32x1024x1, .f32⟩
  | .hbm, ⟨22, _⟩ => ⟨S32x1024x1024, .f32⟩
  | .hbm, ⟨23, _⟩ => ⟨S32x1024x1024, .f32⟩
  | .hbm, ⟨24, _⟩ => ⟨S32x1024x1024, .f32⟩
  | .hbm, ⟨25, _⟩ => ⟨S_, .f32⟩
  | .hbm, ⟨26, _⟩ => ⟨S32x1024, .f32⟩
  | .hbm, ⟨27, _⟩ => ⟨S32x1024x1, .f32⟩
  | .hbm, ⟨28, _⟩ => ⟨S_, .f32⟩
  | .hbm, ⟨29, _⟩ => ⟨S32x1024x1, .f32⟩
  | .hbm, ⟨30, _⟩ => ⟨S32x1024x1, .f32⟩
  | .hbm, ⟨31, _⟩ => ⟨S32x1024x1024, .f32⟩
  | .hbm, ⟨32, _⟩ => ⟨S32x1024x1024, .f32⟩
  | .hbm, ⟨33, _⟩ => ⟨S32x1024x1024, .f32⟩
  | .hbm, ⟨34, _⟩ => ⟨S32x1024x2048, .f32⟩
  | .hbm, ⟨35, _⟩ => ⟨S32x1024x1024, .f32⟩
  | .hbm, ⟨36, _⟩ => ⟨S32x1024x1024, .f32⟩
  | _, _ => ⟨S32x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]

class Facts₀ : Prop where
  shapeCasts_S32768x1024_S32x1024x1024 : S32768x1024.ShapeCasts S32x1024x1024
  reducesTo_S32x1024x1024_S32x1024_d2 : S32x1024x1024.ReducesTo [2] S32x1024
  h_S_ : 0 < S_.numel
  bcast_S_S32x1024 : S_.BroadcastsInDim S32x1024 (![] : Fin 0 → Fin S32x1024.rank)
  bcast_S32x1024_S32x1024x1_0_1 : S32x1024.BroadcastsInDim S32x1024x1 (![0, 1] : Fin 2 → Fin S32x1024x1.rank)
  bcast_S32x1024x1_S32x1024x1024_0_1_2 : S32x1024x1.BroadcastsInDim S32x1024x1024 (![0, 1, 2] : Fin 3 → Fin S32x1024x1024.rank)
  bcast_S_S32x1024x1 : S_.BroadcastsInDim S32x1024x1 (![] : Fin 0 → Fin S32x1024x1.rank)
  concatenates_S32x1024x1024_S32x1024x1024_S32x1024x2048_d2 : Shape.Concatenates [S32x1024x1024, S32x1024x1024] S32x1024x2048 2
  dot_S32x1024x1024_S1024x1024_S32x1024x1024_2_1_01_0_n_n_wf : DotDims.WF S32x1024x1024 S1024x1024 S32x1024x1024 [2] [1] [0, 1] [0] [] []
  dot_S32x1024x1024_S32x1024x1024_S32x1024x1024_2_2_1_1_0_0_wf : DotDims.WF S32x1024x1024 S32x1024x1024 S32x1024x1024 [2] [2] [1] [1] [0] [0]
  dot_S32x1024x1024_S32x1024x1024_S32x1024x1024_2_1_1_2_0_0_wf : DotDims.WF S32x1024x1024 S32x1024x1024 S32x1024x1024 [2] [1] [1] [2] [0] [0]
  dot_S32x1024x2048_S1024x2048_S32x1024x1024_2_1_01_0_n_n_wf : DotDims.WF S32x1024x2048 S1024x2048 S32x1024x1024 [2] [1] [0, 1] [0] [] []

variable [Facts₀]

def dot_S32x1024x1024_S1024x1024_S32x1024x1024_2_1_01_0_n_n : DotDims S32x1024x1024 S1024x1024 S32x1024x1024 where
  lhsContracting := [2]
  rhsContracting := [1]
  lhsNonContracting := [0, 1]
  rhsNonContracting := [0]
  lhsBatch := []
  rhsBatch := []
  wf := dot_S32x1024x1024_S1024x1024_S32x1024x1024_2_1_01_0_n_n_wf
def dot_S32x1024x1024_S32x1024x1024_S32x1024x1024_2_2_1_1_0_0 : DotDims S32x1024x1024 S32x1024x1024 S32x1024x1024 where
  lhsContracting := [2]
  rhsContracting := [2]
  lhsNonContracting := [1]
  rhsNonContracting := [1]
  lhsBatch := [0]
  rhsBatch := [0]
  wf := dot_S32x1024x1024_S32x1024x1024_S32x1024x1024_2_2_1_1_0_0_wf
def dot_S32x1024x1024_S32x1024x1024_S32x1024x1024_2_1_1_2_0_0 : DotDims S32x1024x1024 S32x1024x1024 S32x1024x1024 where
  lhsContracting := [2]
  rhsContracting := [1]
  lhsNonContracting := [1]
  rhsNonContracting := [2]
  lhsBatch := [0]
  rhsBatch := [0]
  wf := dot_S32x1024x1024_S32x1024x1024_S32x1024x1024_2_1_1_2_0_0_wf
def dot_S32x1024x2048_S1024x2048_S32x1024x1024_2_1_01_0_n_n : DotDims S32x1024x2048 S1024x2048 S32x1024x1024 where
  lhsContracting := [2]
  rhsContracting := [1]
  lhsNonContracting := [0, 1]
  rhsNonContracting := [0]
  lhsBatch := []
  rhsBatch := []
  wf := dot_S32x1024x2048_S1024x2048_S32x1024x1024_2_1_01_0_n_n_wf

class Facts : Prop extends Facts₀ where

variable [Facts]
-- ==== Proof.Spec.lean ====
/-
  The specification: what both programs compute, written once as scalar formulas on the extended reals over the five
  argument arrays. For batch `b`, query row `r`:
    q(b,r,e)   = Σ_d Q(b,r,d) · Win(e,d)                          the projected query
    sc(b,r,k)  = Σ_d q(b,r,d) · C(b,k,d)                          the attention scores
    mf(b,r,k)  = the mask word at flat row b·1024 + r, column k, read as a signed integer
    sm         = sc · mf,  rmax = sup_k sm,  pw = exp(sm − rmax)  the shifted exponentials
  The kernel normalises ONCE, after the weighted sum over the keys:
    kmix(b,r,c) = (Σ_k (pw·mf)(k) · C(b,k,c)) / (Σ_k (pw·mf)(k) + ε · Σ_k pw(k))
  while the reference normalises each weight twice (softmax, then renormalisation after masking) before the sum:
    rmix(b,r,c) = Σ_k ((pw(k)/Σpw · mf(k)) / (Σ_j pw(j)/Σpw · mf(j) + ε)) · C(b,k,c).
  The result is tanh of the output projection: the kernel adds two products over 1024 columns (the mixed context against
  the left half of Wout, the projected query against the right half), the reference takes one product over the 2048
  joined columns. `kRow` / `rRow` are the two normalisations for one abstract row.
-/
import Idealize.ShloMosaic.PureOps.Ideal
import Idealize.ShloMosaic.Lib.ValueIdx

noncomputable section

open scoped BigOperators
open Idealize.ShloMosaic Idealize.ShloMosaic.ValueIdx

namespace Cert.Attn

/-- A float array of shape [32, 1024, 1024] at the ideal instance. -/
abbrev A3 := (⟨3, ![32, 1024, 1024]⟩ : Shape).Idx → EReal
/-- The mask words, shape [32768, 1024]. -/
abbrev MK := (⟨2, ![32768, 1024]⟩ : Shape).Idx → BitVec 32
/-- A float matrix of shape [1024, 1024]. -/
abbrev W2 := (⟨2, ![1024, 1024]⟩ : Shape).Idx → EReal
/-- A float matrix of shape [1024, 2048]. -/
abbrev W4 := (⟨2, ![1024, 2048]⟩ : Shape).Idx → EReal

/-- The small constant of both programs' normalisers (the kernel adds `ε · Σ pw`, the reference `ε` after its softmax), as its binary value. -/
def eps : EReal := Ideal.ofBits .f32 0x29E12E13#32

/-- Row `r` of batch `b` in the flat mask: `b · 1024 + r`. -/
def mrow (b : Fin 32) (r : Fin 1024) : Fin 32768 := ⟨b.val * 1024 + r.val, by omega⟩

/-- A column of the left half of the output weights. -/
def colL (c : Fin 1024) : Fin 2048 := ⟨c.val, by omega⟩
/-- A column of the right half of the output weights. -/
def colR (c : Fin 1024) : Fin 2048 := ⟨1024 + c.val, by omega⟩

/-! ## One abstract row: the two normalisations -/

/-- The kernel's normalisation of one row: scores `s`, mask `μ`, values `c`, shift `Mx`. -/
def kRow {n : ℕ} (s μ c : Fin n → EReal) (Mx ε : EReal) : EReal :=
  Ideal.div (∑ k, (Ideal.exp (s k - Mx) * μ k) * c k)
    ((∑ k, Ideal.exp (s k - Mx) * μ k) + ε * ∑ k, Ideal.exp (s k - Mx))

/-- The reference's normalisation of one row: softmax, mask, renormalise, then the weighted sum. -/
def rRow {n : ℕ} (s μ c : Fin n → EReal) (Mx ε : EReal) : EReal :=
  ∑ k, Ideal.div (Ideal.div (Ideal.exp (s k - Mx)) (∑ j, Ideal.exp (s j - Mx)) * μ k)
      ((∑ j, Ideal.div (Ideal.exp (s j - Mx)) (∑ i, Ideal.exp (s i - Mx)) * μ j) + ε) * c k

/-! ## The arrays' formulas -/

variable (Q C : A3) (M : MK) (Win : W2) (Wout : W4)

/-- The projected query `q = Q · Winᵀ`. -/
def qv (b : Fin 32) (r e : Fin 1024) : EReal := ∑ d : Fin 1024, Q (ix3 b r d) * Win (ix2 e d)

/-- The scores `q · Cᵀ` within a batch. -/
def sc (b : Fin 32) (r k : Fin 1024) : EReal := ∑ d : Fin 1024, qv Q Win b r d * C (ix3 b k d)

/-- The mask as a number. -/
def mf (b : Fin 32) (r k : Fin 1024) : EReal := (((M (ix2 (mrow b r) k)).toInt : ℝ) : EReal)

/-- The masked scores. -/
def sm (b : Fin 32) (r k : Fin 1024) : EReal := sc Q C Win b r k * mf M b r k

/-- The row maximum of the masked scores. -/
def rmax (b : Fin 32) (r : Fin 1024) : EReal := ⨆ k : Fin 1024, sm Q C M Win b r k

/-- The kernel's mixed context. -/
def kmix (b : Fin 32) (r c : Fin 1024) : EReal :=
  kRow (sm Q C M Win b r) (mf M b r) (fun k => C (ix3 b k c)) (rmax Q C M Win b r) eps

/-- The reference's mixed context. -/
def rmix (b : Fin 32) (r c : Fin 1024) : EReal :=
  rRow (sm Q C M Win b r) (mf M b r) (fun k => C (ix3 b k c)) (rmax Q C M Win b r) eps

/-- The kernel's result: two products over 1024 columns, added, under tanh. -/
def Gk (i : (⟨3, ![32, 1024, 1024]⟩ : Shape).Idx) : EReal :=
  Ideal.tanh ((∑ c : Fin 1024, kmix Q C M Win (i 0) (i 1) c * Wout (ix2 (i 2) (colL c)))
    + ∑ c : Fin 1024, qv Q Win (i 0) (i 1) c * Wout (ix2 (i 2) (colR c)))

/-- The reference's joined row: the mixed context, then the projected query. -/
def comb (b : Fin 32) (r : Fin 1024) (c : Fin 2048) : EReal :=
  if h : c.val < 1024 then rmix Q C M Win b r ⟨c.val, h⟩ else qv Q Win b r ⟨c.val - 1024, by omega⟩

/-- The reference's result: one product over the 2048 joined columns, under tanh. -/
def Gr (i : (⟨3, ![32, 1024, 1024]⟩ : Shape).Idx) : EReal :=
  Ideal.tanh (∑ c : Fin 2048, comb Q C M Win (i 0) (i 1) c * Wout (ix2 (i 2) c))

end Cert.Attn

end
-- ==== Proof.PreFacts.lean ====
/-
  The precondition, read element by element. The claim holds where four of the float arguments satisfy |x| < +∞ at every
  entry and every mask word is 0 or 1; the precondition states this as one boolean: five conjuncts, each an "all" (a
  reduction by `and` over every axis, started at 1), joined by `and`, and equal to 1. A conjunction of one-bit words is 1
  exactly when each word is; a reduction by `and` that is 1 met a 1 at every entry. At one float entry, |x| = max x (−x) is
  below the pattern 0x7F800000 (which is +∞) only if x is neither infinity, that is, x is a real number. At one mask word,
  "(w = 0) or (w = 1)" being the bit 1 says w is the word 0 or the word 1.
-/
import proofs.«171315_j9234179687166_2_alg».proof.Pre_finite_inputs
import proofs.«171315_j9234179687166_2_alg».proof.Proof.Spec
import Idealize.ShloMosaic.Lib.ReduceAll
import Idealize.ShloMosaic.Lib.ValueIdx

noncomputable section

open Idealize.ShloMosaic Idealize.ShloMosaic.ValueIdx

namespace Cert.Attn

/-- The scalar shape has exactly one index. -/
instance subsingleton_scalar_idx : Subsingleton (⟨0, ![]⟩ : Shape).Idx := ⟨fun a b => funext fun d => d.elim0⟩

/-- The binary32 pattern with exponent all ones and fraction zero is +∞. -/
theorem ofBits_inf_f32 : Ideal.ofBits .f32 0x7F800000#32 = ⊤ := by simp [Ideal.ofBits, Ideal.ieee]

/-- An extended real whose absolute value max x (−x) is strictly below +∞ is a real number. -/
theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) :
    ∃ r : ℝ, x = (r : EReal) := by
  change Ideal.cmp .olt (max x (-x)) (Ideal.ofBits .f32 0x7F800000#32) = 1#1 at h
  rw [ofBits_inf_f32] at h
  unfold Ideal.cmp at h
  induction x using EReal.rec with
  | bot => simp at h
  | coe r => exact ⟨r, rfl⟩
  | top => simp at h

/-- A word for which "(w = 0) or (w = 1)" is the bit 1 is the word 0 or the word 1. -/
theorem zero_or_one_of_ori (w : BitVec 32)
    (h : IntOp.ori (IntOp.cmpi .eq w 0#32) (IntOp.cmpi .eq w 1#32) = 1#1) : w = 0#32 ∨ w = 1#32 := by
  rcases IntOp.ori_eq_one.1 h with h | h
  · exact Or.inl (IntOp.cmpi_eq.1 h)
  · exact Or.inr (IntOp.cmpi_eq.1 h)

/-- THE PRECONDITION DECODED: every entry of the first, second and fourth argument is a real number, and every mask word
    is 0 or 1. (The fifth argument's entries are real too; nothing downstream needs it.) -/
theorem pre_facts [Cert.Pre_finite_inputs.Facts] (x0 x1 : A3) (x2 : MK) (x3 : W2) (x4 : W4)
    (h : Cert.Pre_finite_inputs.fn (F := Ideal) x0 x1 x2 x3 x4 = fun _ => 1#1) :
    (∀ i, ∃ r : ℝ, x0 i = (r : EReal)) ∧ (∀ i, ∃ r : ℝ, x1 i = (r : EReal)) ∧ (∀ i, ∃ r : ℝ, x3 i = (r : EReal)) ∧ (∀ i, x2 i = 0#32 ∨ x2 i = 1#32) := by
  -- the boolean at its one index, with the chain of named steps unfolded to one term
  have e := congrFun h ValueIdx.ix0
  dsimp only [Cert.Pre_finite_inputs.fn, Cert.Pre_finite_inputs.fn_part1] at e
  -- the five conjuncts, outermost first: mask, fifth argument, fourth, then the first two
  obtain ⟨e, h2⟩ := IntOp.andi_eq_one.1 e
  obtain ⟨e, -⟩ := IntOp.andi_eq_one.1 e
  obtain ⟨e, h3⟩ := IntOp.andi_eq_one.1 e
  obtain ⟨h0, h1⟩ := IntOp.andi_eq_one.1 e
  -- each "all" at an entry, then the entry's own fact
  exact ⟨fun i => real_of_abs_lt_inf _ (Host.reduce_andi_all _ _ _ _ _ h0 i),
    fun i => real_of_abs_lt_inf _ (Host.reduce_andi_all _ _ _ _ _ h1 i),
    fun i => real_of_abs_lt_inf _ (Host.reduce_andi_all _ _ _ _ _ h3 i),
    fun i => zero_or_one_of_ori _ (Host.reduce_andi_all _ _ _ _ _ h2 i)⟩

end Cert.Attn

end
-- ==== Proof.RowMath.lean ====
/-
  The one algebraic law of the certificate, on the extended reals. The kernel divides the weighted sum over the keys
  once by its normaliser; the reference divides each weight twice (softmax, then renormalisation after masking) before
  the sum. When every score, value and shift is a real number, every mask entry is 0 or 1, and the small constant is a
  positive real, every divisor that occurs is a positive real, every quantity is the coercion of a real, and the two
  rows are the same real number.
-/
import proofs.«171315_j9234179687166_2_alg».proof.Proof.Spec
import Idealize.ShloMosaic.PureOps.Ideal.Laws

noncomputable section

open scoped BigOperators
open Idealize.ShloMosaic

namespace Cert.Attn

/-- `x` is a real number. -/
def IsR (x : EReal) : Prop := ∃ r : ℝ, x = (r : EReal)

theorem IsR.add {x y : EReal} (hx : IsR x) (hy : IsR y) : IsR (x + y) := by
  obtain ⟨a, rfl⟩ := hx
  obtain ⟨b, rfl⟩ := hy
  exact ⟨a + b, (EReal.coe_add a b).symm⟩

theorem IsR.mul {x y : EReal} (hx : IsR x) (hy : IsR y) : IsR (x * y) := by
  obtain ⟨a, rfl⟩ := hx
  obtain ⟨b, rfl⟩ := hy
  exact ⟨a * b, (EReal.coe_mul a b).symm⟩

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem isR_sum {ι : Type*} (s : Finset ι) (f : ι → EReal) (h : ∀ i ∈ s, IsR (f i)) :
    IsR (∑ i ∈ s, f i) := by
  classical
  induction s using Finset.induction_on with
  | empty => exact ⟨0, by simp⟩
  | insert a s ha ih =>
    rw [Finset.sum_insert ha]
    exact (h a (Finset.mem_insert_self a s)).add (ih (fun i hi => h i (Finset.mem_insert_of_mem hi)))

/-- A supremum of finitely many reals over a nonempty index set is one of them. -/
theorem isR_iSup {n : ℕ} (hn : 0 < n) (s : Fin n → EReal) (hs : ∀ k, IsR (s k)) : IsR (⨆ k, s k) := by
  haveI : Nonempty (Fin n) := ⟨⟨0, hn⟩⟩
  obtain ⟨i, hi⟩ := exists_eq_ciSup_of_finite (f := s)
  rw [← hi]
  exact hs i

theorem mask_bit (w : BitVec 32) (h : w = 0#32 ∨ w = 1#32) :
    (((w.toInt : ℝ)) : EReal) = 0 ∨ (((w.toInt : ℝ)) : EReal) = 1 := by
  rcases h with rfl | rfl
  · left
    simp
  · right
    have : (1#32).toInt = 1 := by decide
    rw [this]
    simp

/-- The identity on the reals: with `L = Σ p > 0`, `A = Σ p·m ≥ 0` and `e > 0`, dividing each weight by `L`, masking,
    and dividing again by `A/L + e` before the weighted sum is dividing the weighted sum once by `A + e·L`. -/
theorem real_row {n : ℕ} (p m c : Fin n → ℝ) (e : ℝ) (hL : 0 < ∑ k, p k) (hA : 0 ≤ ∑ k, p k * m k)
    (he : 0 < e) :
    ∑ k, p k * (1 / ∑ j, p j) * m k * (1 / ((∑ j, p j * (1 / ∑ i, p i) * m j) + e)) * c k
      = (∑ k, p k * m k * c k) * (1 / ((∑ k, p k * m k) + e * ∑ k, p k)) := by
  generalize hLdef : ∑ j, p j = L at *
  have hB : (∑ j, p j * (1 / L) * m j) = (∑ j, p j * m j) * (1 / L) := by
    rw [Finset.sum_mul]
    exact Finset.sum_congr rfl (fun j _ => by ring)
  rw [hB]
  generalize hAdef : ∑ j, p j * m j = A at *
  have h1 : ∑ k, p k * (1 / L) * m k * (1 / (A * (1 / L) + e)) * c k
      = (∑ k, p k * m k * c k) * ((1 / L) * (1 / (A * (1 / L) + e))) := by
    rw [Finset.sum_mul]
    exact Finset.sum_congr rfl (fun j _ => by ring)
  rw [h1]
  congr 1
  have hL0 : L ≠ 0 := hL.ne'
  have h2 : A * (1 / L) + e ≠ 0 := by
    have := mul_nonneg hA (one_div_nonneg.mpr hL.le)
    exact (by linarith : 0 < A * (1 / L) + e).ne'
  have h3 : A + e * L ≠ 0 := by
    have := mul_pos he hL
    exact (by linarith : 0 < A + e * L).ne'
  field_simp

/-- The kernel's row over real data is the coercion of one real quotient. -/
theorem kRow_coe {n : ℕ} (p m c : Fin n → ℝ) (e : ℝ) (hden : (∑ k, p k * m k) + e * ∑ k, p k ≠ 0) :
    Ideal.div (∑ k, ((p k : EReal) * (m k : EReal)) * (c k : EReal))
        ((∑ k, (p k : EReal) * (m k : EReal)) + (e : EReal) * ∑ k, (p k : EReal))
      = (((∑ k, p k * m k * c k) * (1 / ((∑ k, p k * m k) + e * ∑ k, p k)) : ℝ) : EReal) := by
  rw [EReal.coe_mul, ← Ideal.div_coe hden, EReal.coe_add, EReal.coe_mul, coe_sum, coe_sum, coe_sum]
  simp only [EReal.coe_mul]

/-- The reference's row over real data is the coercion of one real sum. -/
theorem rRow_coe {n : ℕ} (p m c : Fin n → ℝ) (e : ℝ) (hL : (∑ k, p k) ≠ 0)
    (hBe : (∑ j, p j * (1 / ∑ i, p i) * m j) + e ≠ 0) :
    ∑ k, Ideal.div (Ideal.div (p k : EReal) (∑ j, (p j : EReal)) * (m k : EReal))
        ((∑ j, Ideal.div (p j : EReal) (∑ i, (p i : EReal)) * (m j : EReal)) + (e : EReal)) * (c k : EReal)
      = ((∑ k, p k * (1 / ∑ j, p j) * m k * (1 / ((∑ j, p j * (1 / ∑ i, p i) * m j) + e)) * c k : ℝ) : EReal) := by
  have d1 : ∀ k, Ideal.div (p k : EReal) (∑ j, (p j : EReal)) = ((p k * (1 / ∑ j, p j) : ℝ) : EReal) := fun k => by
    rw [← coe_sum, Ideal.div_coe hL, ← EReal.coe_mul]
  simp only [d1]
  have d2 : (∑ j, ((p j * (1 / ∑ i, p i) : ℝ) : EReal) * (m j : EReal))
      = ((∑ j, p j * (1 / ∑ i, p i) * m j : ℝ) : EReal) := by
    rw [coe_sum]
    simp only [EReal.coe_mul]
  rw [d2, ← EReal.coe_add, coe_sum]
  refine Finset.sum_congr rfl (fun k _ => ?_)
  rw [Ideal.div_coe hBe, ← EReal.coe_mul, ← EReal.coe_mul, ← EReal.coe_mul]

theorem row_eq {n : ℕ} (hn : 0 < n) (s μ c : Fin n → EReal) (Mx ε : EReal)
    (hs : ∀ k, IsR (s k)) (hc : ∀ k, IsR (c k)) (hμ : ∀ k, μ k = 0 ∨ μ k = 1) (hM : IsR Mx)
    (hε : ∃ x : ℝ, 0 < x ∧ ε = (x : EReal)) : rRow s μ c Mx ε = kRow s μ c Mx ε := by
  choose s' hs' using hs
  choose c' hc' using hc
  obtain ⟨M', rfl⟩ := hM
  obtain ⟨e, he, rfl⟩ := hε
  have hμ' : ∀ k, ∃ m : ℝ, 0 ≤ m ∧ μ k = (m : EReal) := fun k => by
    rcases hμ k with h | h
    · exact ⟨0, le_rfl, by rw [h, EReal.coe_zero]⟩
    · exact ⟨1, zero_le_one, by rw [h, EReal.coe_one]⟩
  choose m hm0 hm using hμ'
  obtain rfl : s = fun k => (s' k : EReal) := funext hs'
  obtain rfl : c = fun k => (c' k : EReal) := funext hc'
  obtain rfl : μ = fun k => (m k : EReal) := funext hm
  have hp : ∀ k, 0 < Real.exp (s' k - M') := fun k => Real.exp_pos _
  have hL : 0 < ∑ k, Real.exp (s' k - M') :=
    Finset.sum_pos (fun k _ => hp k) ⟨⟨0, hn⟩, Finset.mem_univ _⟩
  have hA : 0 ≤ ∑ k, Real.exp (s' k - M') * m k :=
    Finset.sum_nonneg (fun k _ => mul_nonneg (hp k).le (hm0 k))
  have hB : 0 ≤ ∑ j, Real.exp (s' j - M') * (1 / ∑ i, Real.exp (s' i - M')) * m j :=
    Finset.sum_nonneg (fun j _ => mul_nonneg (mul_nonneg (hp j).le (one_div_nonneg.mpr hL.le)) (hm0 j))
  have hden : (∑ k, Real.exp (s' k - M') * m k) + e * ∑ k, Real.exp (s' k - M') ≠ 0 := by
    have := mul_pos he hL
    exact (by linarith : 0 < (∑ k, Real.exp (s' k - M') * m k) + e * ∑ k, Real.exp (s' k - M')).ne'
  have hBe : (∑ j, Real.exp (s' j - M') * (1 / ∑ i, Real.exp (s' i - M')) * m j) + e ≠ 0 :=
    (by linarith : 0 < (∑ j, Real.exp (s' j - M') * (1 / ∑ i, Real.exp (s' i - M')) * m j) + e).ne'
  have e1 : ∀ k, Ideal.exp ((s' k : EReal) - (M' : EReal)) = ((Real.exp (s' k - M') : ℝ) : EReal) := fun k => by
    rw [← EReal.coe_sub, Ideal.exp_coe]
  have hr := rRow_coe (fun k => Real.exp (s' k - M')) m c' e hL.ne' hBe
  have hk := kRow_coe (fun k => Real.exp (s' k - M')) m c' e hden
  rw [real_row (fun k => Real.exp (s' k - M')) m c' e hL hA he] at hr
  simp only [rRow, kRow, e1]
  exact hr.trans hk.symm

theorem eps_pos : ∃ x : ℝ, 0 < x ∧ eps = (x : EReal) := by
  have h : eps = (((2 ^ 23 + 6368787 : ℕ) : ℝ) * (2 : ℝ) ^ ((83 : ℤ) - 127 - 23) : ℝ) := by
    simp [eps, Ideal.ofBits, Ideal.ieee, -EReal.coe_mul]
  exact ⟨_, by positivity, h⟩

end Cert.Attn

end
-- ==== Proof.Bridge.lean ====
/-
  The bridge between the two specifications. The reference takes one product over the 2048 joined columns (the mixed
  context, then the projected query); the kernel adds two products over 1024 columns each. A sum over 2048 columns is the
  sum over its first 1024 plus the sum over its last 1024; on the first half the joined row is the reference's mixed
  context, which is the kernel's by the row law (all its data are real, the mask is 0 or 1, the small constant is a
  positive real); on the second half it is the projected query on both sides.
-/
import proofs.«171315_j9234179687166_2_alg».proof.Proof.RowMath

noncomputable section

open scoped BigOperators
open Idealize.ShloMosaic Idealize.ShloMosaic.ValueIdx

namespace Cert.Attn

variable (Q C : A3) (M : MK) (Win : W2) (Wout : W4)

/-- The projected query is real when the query and the input weights are. -/
theorem qv_isR (hQ : ∀ i, ∃ r : ℝ, Q i = (r : EReal)) (hW : ∀ i, ∃ r : ℝ, Win i = (r : EReal))
    (b : Fin 32) (r e : Fin 1024) : IsR (qv Q Win b r e) := by
  unfold qv
  exact isR_sum _ _ (fun d _ => IsR.mul (hQ _) (hW _))

/-- The scores are real. -/
theorem sc_isR (hQ : ∀ i, ∃ r : ℝ, Q i = (r : EReal)) (hC : ∀ i, ∃ r : ℝ, C i = (r : EReal))
    (hW : ∀ i, ∃ r : ℝ, Win i = (r : EReal)) (b : Fin 32) (r k : Fin 1024) : IsR (sc Q C Win b r k) := by
  unfold sc
  exact isR_sum _ _ (fun d _ => IsR.mul (qv_isR Q Win hQ hW b r d) (hC _))

/-- A mask entry is 0 or 1. -/
theorem mf_bit (hM : ∀ i, M i = 0#32 ∨ M i = 1#32) (b : Fin 32) (r k : Fin 1024) :
    mf M b r k = 0 ∨ mf M b r k = 1 := by
  unfold mf
  exact mask_bit _ (hM _)

/-- A mask entry is real. -/
theorem mf_isR (hM : ∀ i, M i = 0#32 ∨ M i = 1#32) (b : Fin 32) (r k : Fin 1024) : IsR (mf M b r k) := by
  rcases mf_bit M hM b r k with h | h
  · exact ⟨0, by rw [h, EReal.coe_zero]⟩
  · exact ⟨1, by rw [h, EReal.coe_one]⟩

/-- The masked scores are real. -/
theorem sm_isR (hQ : ∀ i, ∃ r : ℝ, Q i = (r : EReal)) (hC : ∀ i, ∃ r : ℝ, C i = (r : EReal))
    (hW : ∀ i, ∃ r : ℝ, Win i = (r : EReal)) (hM : ∀ i, M i = 0#32 ∨ M i = 1#32)
    (b : Fin 32) (r k : Fin 1024) : IsR (sm Q C M Win b r k) := by
  unfold sm
  exact IsR.mul (sc_isR Q C Win hQ hC hW b r k) (mf_isR M hM b r k)

/-- The row maximum of the masked scores is real: a supremum of 1024 reals. -/
theorem rmax_isR (hQ : ∀ i, ∃ r : ℝ, Q i = (r : EReal)) (hC : ∀ i, ∃ r : ℝ, C i = (r : EReal))
    (hW : ∀ i, ∃ r : ℝ, Win i = (r : EReal)) (hM : ∀ i, M i = 0#32 ∨ M i = 1#32)
    (b : Fin 32) (r : Fin 1024) : IsR (rmax Q C M Win b r) := by
  unfold rmax
  exact isR_iSup (by norm_num) _ (fun k => sm_isR Q C M Win hQ hC hW hM b r k)

/-- The reference's mixed context is the kernel's: the row law at 1024 keys. -/
theorem rmix_eq_kmix (hQ : ∀ i, ∃ r : ℝ, Q i = (r : EReal)) (hC : ∀ i, ∃ r : ℝ, C i = (r : EReal))
    (hW : ∀ i, ∃ r : ℝ, Win i = (r : EReal)) (hM : ∀ i, M i = 0#32 ∨ M i = 1#32)
    (b : Fin 32) (r c : Fin 1024) : rmix Q C M Win b r c = kmix Q C M Win b r c := by
  unfold rmix kmix
  exact row_eq (by norm_num) _ _ _ _ _ (fun k => sm_isR Q C M Win hQ hC hW hM b r k) (fun k => hC _)
    (fun k => mf_bit M hM b r k) (rmax_isR Q C M Win hQ hC hW hM b r) eps_pos

/-- A sum over 2048 columns is the sum over the first 1024 plus the sum over the last 1024. -/
theorem sum_split (f : Fin 2048 → EReal) :
    ∑ c : Fin 2048, f c = (∑ c : Fin 1024, f (colL c)) + ∑ c : Fin 1024, f (colR c) := by
  exact Fin.sum_univ_add (a := 1024) (b := 1024) f

/-- On the first 1024 columns the joined row is the mixed context. -/
theorem comb_colL (b : Fin 32) (r c : Fin 1024) : comb Q C M Win b r (colL c) = rmix Q C M Win b r c := by
  unfold comb
  rw [dif_pos (show (colL c).val < 1024 from c.isLt)]
  rfl

/-- On the last 1024 columns the joined row is the projected query. -/
theorem comb_colR (b : Fin 32) (r c : Fin 1024) : comb Q C M Win b r (colR c) = qv Q Win b r c := by
  unfold comb
  have h : ¬ (colR c).val < 1024 := by
    show ¬ (1024 + c.val < 1024)
    omega
  rw [dif_neg h]
  congr 1
  exact Fin.ext (by show 1024 + c.val - 1024 = c.val; omega)

/-- One output entry: the reference's single product over the joined columns is the kernel's two products. -/
theorem row_bridge (hQ : ∀ i, ∃ r : ℝ, Q i = (r : EReal)) (hC : ∀ i, ∃ r : ℝ, C i = (r : EReal))
    (hW : ∀ i, ∃ r : ℝ, Win i = (r : EReal)) (hM : ∀ i, M i = 0#32 ∨ M i = 1#32)
    (b : Fin 32) (r o : Fin 1024) :
    ∑ c : Fin 2048, comb Q C M Win b r c * Wout (ix2 o c)
      = (∑ c : Fin 1024, kmix Q C M Win b r c * Wout (ix2 o (colL c)))
        + ∑ c : Fin 1024, qv Q Win b r c * Wout (ix2 o (colR c)) := by
  rw [sum_split]
  refine congrArg₂ (· + ·) ?_ ?_
  · refine Finset.sum_congr rfl (fun c _ => ?_)
    rw [comb_colL, rmix_eq_kmix Q C M Win hQ hC hW hM]
  · refine Finset.sum_congr rfl (fun c _ => ?_)
    rw [comb_colR]

theorem Gr_eq_Gk (Q C : A3) (M : MK) (Win : W2) (Wout : W4)
    (hQ : ∀ i, ∃ r : ℝ, Q i = (r : EReal)) (hC : ∀ i, ∃ r : ℝ, C i = (r : EReal))
    (hW : ∀ i, ∃ r : ℝ, Win i = (r : EReal))
    (hM : ∀ i, M i = 0#32 ∨ M i = 1#32) : Gr Q C M Win Wout = Gk Q C M Win Wout := by
  funext i
  unfold Gr Gk
  exact congrArg Ideal.tanh (row_bridge Q C M Win Wout hQ hC hW hM (i 0) (i 1) (i 2))

end Cert.Attn

end
-- ==== Proof.BlockSpec.lean ====
/-
  What ONE grid point computes, as scalar formulas over its input blocks: a query block of 256 rows `x0`, the whole
  context of its batch `x1`, the 256 mask rows `x2`, and the three weight matrices `x3` (input projection), `x4` / `x5`
  (the left and right halves of the output projection). These are the formulas of Spec.lean with the batch fixed and the
  row counted inside the block; the normalisation is the kernel's (`kRow`).
-/
import proofs.«171315_j9234179687166_2_alg».proof.Proof.Spec

noncomputable section

open scoped BigOperators
open Idealize.ShloMosaic Idealize.ShloMosaic.ValueIdx

namespace Cert.Attn

/-- A block of 256 rows of a float array. -/
abbrev B0 := (⟨3, ![1, 256, 1024]⟩ : Shape).Idx → EReal
/-- One batch of the context. -/
abbrev B1 := (⟨3, ![1, 1024, 1024]⟩ : Shape).Idx → EReal
/-- A block of 256 rows of mask words. -/
abbrev B2 := (⟨3, ![1, 256, 1024]⟩ : Shape).Idx → BitVec 32

variable (x0 : B0) (x1 : B1) (x2 : B2) (x3 x4 x5 : W2)

/-- The projected query of row `r` of the block. -/
def qB (r : Fin 256) (e : Fin 1024) : EReal := ∑ d : Fin 1024, x0 (ix3 0 r d) * x3 (ix2 e d)

/-- The scores of row `r` against key `k`. -/
def scB (r : Fin 256) (k : Fin 1024) : EReal := ∑ d : Fin 1024, qB x0 x3 r d * x1 (ix3 0 k d)

/-- The mask of row `r`, key `k`, as a number. -/
def mfB (r : Fin 256) (k : Fin 1024) : EReal := (((x2 (ix3 0 r k)).toInt : ℝ) : EReal)

/-- The masked scores. -/
def smB (r : Fin 256) (k : Fin 1024) : EReal := scB x0 x1 x3 r k * mfB x2 r k

/-- Their row maximum. -/
def rmaxB (r : Fin 256) : EReal := ⨆ k : Fin 1024, smB x0 x1 x2 x3 r k

/-- The mixed context of row `r`, column `c`. -/
def mixB (r : Fin 256) (c : Fin 1024) : EReal :=
  kRow (smB x0 x1 x2 x3 r) (mfB x2 r) (fun k => x1 (ix3 0 k c)) (rmaxB x0 x1 x2 x3 r) eps

/-- The block the point stores. -/
def outB (j : (⟨3, ![1, 256, 1024]⟩ : Shape).Idx) : EReal :=
  Ideal.tanh ((∑ c : Fin 1024, mixB x0 x1 x2 x3 (j 1) c * x4 (ix2 (j 2) c))
    + ∑ c : Fin 1024, qB x0 x3 (j 1) c * x5 (ix2 (j 2) c))

end Cert.Attn

end
-- ==== Proof.BlockToArray.lean ====
/-
  From one grid point's blocks to the whole arrays. The grid point of batch `b` and query block `qi` reads rows
  `qi · 256 … qi · 256 + 255` of that batch: its query block and mask block are those rows of the arrays, its context block
  is the whole batch, its weights are the weight arrays (the output weights by halves). The block formulas are the array
  formulas at those rows, term by term: every step is a congruence, no algebra.
-/
import proofs.«171315_j9234179687166_2_alg».proof.Proof.BlockSpec

noncomputable section

open scoped BigOperators
open Idealize.ShloMosaic Idealize.ShloMosaic.ValueIdx

namespace Cert.Attn

/-- Row `r` of query block `qi` in its batch: `qi · 256 + r`. -/
def brow (qi : Fin 4) (r : Fin 256) : Fin 1024 := ⟨qi.val * 256 + r.val, by omega⟩

section
variable (Q C : A3) (M : MK) (Win : W2) (Wout : W4) (x0 : B0) (x1 : B1) (x2 : B2) (x3 x4 x5 : W2)
  (b : Fin 32) (qi : Fin 4)

/-- The block's projected query is the array's at the block's rows. -/
theorem qB_eq (h0 : ∀ (r : Fin 256) (d : Fin 1024), x0 (ix3 0 r d) = Q (ix3 b (brow qi r) d))
    (h3 : ∀ (e d : Fin 1024), x3 (ix2 e d) = Win (ix2 e d)) (r : Fin 256) (e : Fin 1024) :
    qB x0 x3 r e = qv Q Win b (brow qi r) e := by
  unfold qB qv
  exact Finset.sum_congr rfl (fun d _ => by rw [h0, h3])

/-- The block's scores are the array's. -/
theorem scB_eq (h0 : ∀ (r : Fin 256) (d : Fin 1024), x0 (ix3 0 r d) = Q (ix3 b (brow qi r) d))
    (h1 : ∀ (k d : Fin 1024), x1 (ix3 0 k d) = C (ix3 b k d))
    (h3 : ∀ (e d : Fin 1024), x3 (ix2 e d) = Win (ix2 e d)) (r : Fin 256) (k : Fin 1024) :
    scB x0 x1 x3 r k = sc Q C Win b (brow qi r) k := by
  unfold scB sc
  exact Finset.sum_congr rfl (fun d _ => by rw [qB_eq Q Win x0 x3 b qi h0 h3, h1])

/-- The block's mask is the array's. -/
theorem mfB_eq (h2 : ∀ (r : Fin 256) (k : Fin 1024), x2 (ix3 0 r k) = M (ix2 (mrow b (brow qi r)) k))
    (r : Fin 256) (k : Fin 1024) : mfB x2 r k = mf M b (brow qi r) k := by
  unfold mfB mf
  rw [h2]

/-- The block's masked scores are the array's. -/
theorem smB_eq (h0 : ∀ (r : Fin 256) (d : Fin 1024), x0 (ix3 0 r d) = Q (ix3 b (brow qi r) d))
    (h1 : ∀ (k d : Fin 1024), x1 (ix3 0 k d) = C (ix3 b k d))
    (h2 : ∀ (r : Fin 256) (k : Fin 1024), x2 (ix3 0 r k) = M (ix2 (mrow b (brow qi r)) k))
    (h3 : ∀ (e d : Fin 1024), x3 (ix2 e d) = Win (ix2 e d)) (r : Fin 256) (k : Fin 1024) :
    smB x0 x1 x2 x3 r k = sm Q C M Win b (brow qi r) k := by
  unfold smB sm
  rw [scB_eq Q C Win x0 x1 x3 b qi h0 h1 h3, mfB_eq M x2 b qi h2]

/-- The block's row maximum is the array's. -/
theorem rmaxB_eq (h0 : ∀ (r : Fin 256) (d : Fin 1024), x0 (ix3 0 r d) = Q (ix3 b (brow qi r) d))
    (h1 : ∀ (k d : Fin 1024), x1 (ix3 0 k d) = C (ix3 b k d))
    (h2 : ∀ (r : Fin 256) (k : Fin 1024), x2 (ix3 0 r k) = M (ix2 (mrow b (brow qi r)) k))
    (h3 : ∀ (e d : Fin 1024), x3 (ix2 e d) = Win (ix2 e d)) (r : Fin 256) :
    rmaxB x0 x1 x2 x3 r = rmax Q C M Win b (brow qi r) := by
  unfold rmaxB rmax
  exact iSup_congr (fun k => smB_eq Q C M Win x0 x1 x2 x3 b qi h0 h1 h2 h3 r k)

/-- The block's mixed context is the kernel's mixed context of the arrays. -/
theorem mixB_eq (h0 : ∀ (r : Fin 256) (d : Fin 1024), x0 (ix3 0 r d) = Q (ix3 b (brow qi r) d))
    (h1 : ∀ (k d : Fin 1024), x1 (ix3 0 k d) = C (ix3 b k d))
    (h2 : ∀ (r : Fin 256) (k : Fin 1024), x2 (ix3 0 r k) = M (ix2 (mrow b (brow qi r)) k))
    (h3 : ∀ (e d : Fin 1024), x3 (ix2 e d) = Win (ix2 e d)) (r : Fin 256) (c : Fin 1024) :
    mixB x0 x1 x2 x3 r c = kmix Q C M Win b (brow qi r) c := by
  unfold mixB kmix
  have e1 : smB x0 x1 x2 x3 r = sm Q C M Win b (brow qi r) :=
    funext (fun k => smB_eq Q C M Win x0 x1 x2 x3 b qi h0 h1 h2 h3 r k)
  have e2 : mfB x2 r = mf M b (brow qi r) := funext (fun k => mfB_eq M x2 b qi h2 r k)
  have e3 : (fun k : Fin 1024 => x1 (ix3 0 k c)) = (fun k : Fin 1024 => C (ix3 b k c)) :=
    funext (fun k => h1 k c)
  rw [e1, e2, e3, rmaxB_eq Q C M Win x0 x1 x2 x3 b qi h0 h1 h2 h3]

end

theorem outB_eq_Gk (Q C : A3) (M : MK) (Win : W2) (Wout : W4) (x0 : B0) (x1 : B1) (x2 : B2) (x3 x4 x5 : W2)
    (b : Fin 32) (qi : Fin 4)
    (h0 : ∀ (r : Fin 256) (d : Fin 1024), x0 (ix3 0 r d) = Q (ix3 b (brow qi r) d))
    (h1 : ∀ (k d : Fin 1024), x1 (ix3 0 k d) = C (ix3 b k d))
    (h2 : ∀ (r : Fin 256) (k : Fin 1024), x2 (ix3 0 r k) = M (ix2 (mrow b (brow qi r)) k))
    (h3 : ∀ (e d : Fin 1024), x3 (ix2 e d) = Win (ix2 e d))
    (h4 : ∀ (d c : Fin 1024), x4 (ix2 d c) = Wout (ix2 d (colL c)))
    (h5 : ∀ (d c : Fin 1024), x5 (ix2 d c) = Wout (ix2 d (colR c)))
    (r : Fin 256) (d : Fin 1024) :
    outB x0 x1 x2 x3 x4 x5 (ix3 0 r d) = Gk Q C M Win Wout (ix3 b (brow qi r) d) := by
  show Ideal.tanh ((∑ c : Fin 1024, mixB x0 x1 x2 x3 r c * x4 (ix2 d c))
      + ∑ c : Fin 1024, qB x0 x3 r c * x5 (ix2 d c))
    = Ideal.tanh ((∑ c : Fin 1024, kmix Q C M Win b (brow qi r) c * Wout (ix2 d (colL c)))
      + ∑ c : Fin 1024, qv Q Win b (brow qi r) c * Wout (ix2 d (colR c)))
  refine congrArg Ideal.tanh (congrArg₂ (· + ·) (Finset.sum_congr rfl (fun c _ => ?_))
    (Finset.sum_congr rfl (fun c _ => ?_)))
  · rw [mixB_eq Q C M Win x0 x1 x2 x3 b qi h0 h1 h2 h3, h4]
  · rw [qB_eq Q Win x0 x3 b qi h0 h3, h5]

end Cert.Attn

end
-- ==== Proof.LibReduceRead.lean ====
/-
  Reductions of a matrix along one axis, read at an index, at the ideal instance and generic in the extents.

  * the sum of an [a, b] matrix along the rows (axis 0) at column e is the sum over the rows of the entries of column e;
  * the sum along the lanes (axis 1) at row r is the sum over the lanes of the entries of row r;
  * the sum, and the maximum started from the bottom element, of an [a, 1] column along its rows: the sum over the
    rows, and the fold of max over the rows.
  Each is the library's reading of a one-axis reduction (the reduced index with the coordinate put back on the dropped
  axis) with that index written by its coordinates.
-/
import Idealize.ShloMosaic.Lib.ValueIdx
import Idealize.ShloMosaic.PureOps.Ideal.Laws

noncomputable section

open scoped BigOperators

namespace Cert.LibReduceRead

open Idealize.ShloMosaic Idealize.ShloMosaic.ValueIdx

/-- Column sums: the sum along the rows, read at column e. -/
theorem colSum_apply {a b : ℕ} (X : FVec Ideal ⟨2, ![a, b]⟩ .f32) (h : (⟨2, ![a, b]⟩ : Shape).Reduces [0] ⟨1, ![b]⟩)
    (hφ : FKind.Formats .f32) (hacc : (0x00000000#32 : BitVec 32) = FKind.add.neutral .f32 hφ) (e : Fin b) :
    multiReduction .add [0] ⟨1, ![b]⟩ X 0x00000000#32 h hφ hacc (ix1 e) = ∑ s : Fin a, X (ix2 s e) := by
  refine (Ideal.multiReduction_add_single X _ h hφ hacc (ix1 e)).trans ?_
  show ∑ s : Fin a, _ = _
  exact Finset.sum_congr rfl fun s _ => congrArg X (funext fun c => Fin.ext (by
    match c with
    | ⟨0, _⟩ => rfl
    | ⟨1, _⟩ => rfl))

/-- Row sums: the sum along the lanes, read at row r. -/
theorem rowSum_apply {a b : ℕ} (X : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (r : Fin a) :
    multiReduction .add [1] ⟨1, ![a]⟩ X 0x00000000#32 h hφ hacc (ix1 r) = ∑ k : Fin b, X (ix2 r k) := by
  refine (Ideal.multiReduction_add_single X _ h hφ hacc (ix1 r)).trans ?_
  show ∑ k : Fin b, _ = _
  exact Finset.sum_congr rfl fun k _ => congrArg X (funext fun c => Fin.ext (by
    match c with
    | ⟨0, _⟩ => rfl
    | ⟨1, _⟩ => rfl))

/-- The row index a one-entry result puts back under a column: (s, 0). -/
theorem lift_col {a : ℕ} (h : (⟨2, ![a, 1]⟩ : Shape).Reduces [0] ⟨1, ![1]⟩) (j : (⟨1, ![1]⟩ : Shape).Idx) (s : Fin a) :
    h.lift j s = ix2 s (0 : Fin 1) :=
  funext fun c => Fin.ext (by
    match c with
    | ⟨0, _⟩ => rfl
    | ⟨1, _⟩ =>
      show (j ⟨0, _⟩).val = 0
      have hj : (j ⟨0, Nat.one_pos⟩).val < 1 := (j ⟨0, Nat.one_pos⟩).isLt
      omega)

/-- The sum of a column along its rows. -/
theorem colSum1_apply {a : ℕ} (X : FVec Ideal ⟨2, ![a, 1]⟩ .f32) (h : (⟨2, ![a, 1]⟩ : Shape).Reduces [0] ⟨1, ![1]⟩)
    (hφ : FKind.Formats .f32) (hacc : (0x00000000#32 : BitVec 32) = FKind.add.neutral .f32 hφ)
    (j : (⟨1, ![1]⟩ : Shape).Idx) :
    multiReduction .add [0] ⟨1, ![1]⟩ X 0x00000000#32 h hφ hacc j = ∑ s : Fin a, X (ix2 s (0 : Fin 1)) := by
  refine (Ideal.multiReduction_add_single X _ h hφ hacc j).trans ?_
  show ∑ s : Fin a, _ = _
  exact Finset.sum_congr rfl fun s _ => congrArg X (lift_col h j s)

/-- The maximum of a column along its rows, started from the bottom element's word: the fold of max over the rows. -/
theorem colMax1_apply {a : ℕ} (X : FVec Ideal ⟨2, ![a, 1]⟩ .f32) (h : (⟨2, ![a, 1]⟩ : Shape).Reduces [0] ⟨1, ![1]⟩)
    (hφ : FKind.Formats .f32) (hacc : (0xFF800000#32 : BitVec 32) = FKind.maximumf.neutral .f32 hφ)
    (j : (⟨1, ![1]⟩ : Shape).Idx) :
    multiReduction .maximumf [0] ⟨1, ![1]⟩ X 0xFF800000#32 h hφ hacc j
      = (Finset.univ : Finset (Fin a)).fold max (Ideal.ofBits .f32 0xFF800000#32) (fun s => X (ix2 s (0 : Fin 1))) := by
  refine (Ideal.multiReduction_maximumf_single X _ h hφ hacc j).trans ?_
  show (Finset.univ : Finset (Fin a)).fold max (Ideal.ofBits .f32 0xFF800000#32) _ = _
  exact congrArg (fun f => (Finset.univ : Finset (Fin a)).fold max (Ideal.ofBits .f32 0xFF800000#32) f)
    (funext fun s => congrArg X (lift_col h j s))

end Cert.LibReduceRead

end
-- ==== Proof.LibLayout.lean ====
/-
  Layout operations of small shapes read at an index written by its coordinates: a vector viewed as a column, a column
  repeated along each row, and the row-major regrouping of an array's two leading axes into one axis and back.
  Each is the library's general reading of the operation (equal row-major positions for a cast, trailing coordinates
  for a broadcast) with the two positions worked out for the shapes at hand.
-/
import Idealize.ShloMosaic.Lib.Pipeline.Value
import Idealize.ShloMosaic.Lib.ValueIdx

namespace Cert.LibLayout

open Idealize.ShloMosaic Idealize.ShloMosaic.ValueIdx

variable {α : Type}

/-- An `[a]` array cast to the column `[a, 1]` reads, at `(i, u)`, the operand at `i`: position `i · 1 + 0` is `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[n0, n1, n2]` array with its two leading axes regrouped into one of extent `N` reads, at `(r, c)` with
    `r = s · n1 + b`, the operand at `(s, b, c)`: both sit at row-major position `(s · n1 + b) · n2 + c`. -/
theorem shapeCast_abc_dc_apply {n0 n1 n2 N : ℕ} (x : (⟨3, ![n0, n1, n2]⟩ : Shape).Idx → α)
    (h : (⟨3, ![n0, n1, n2]⟩ : Shape).ShapeCasts ⟨2, ![N, n2]⟩) (r : Fin N) (c : Fin n2) (s : Fin n0) (b : Fin n1)
    (hr : r.val = s.val * n1 + b.val) :
    shapeCast ⟨2, ![N, n2]⟩ x h (ix2 r c) = x (ix3 s b c) :=
  shapeCast_apply x h _ _ (by
    rw [Shape.rowMajor_val_three, Shape.rowMajor_val_two]
    show (s.val * n1 + b.val) * n2 + c.val = r.val * n2 + c.val
    rw [hr])

/-- The way back: an `[N, n2]` array with its leading axis split into `[n0, n1]` reads, at `(s, b, c)`, the operand at
    `(r, c)` for `r = s · n1 + b`. -/
theorem shapeCast_dc_abc_apply {n0 n1 n2 N : ℕ} (x : (⟨2, ![N, n2]⟩ : Shape).Idx → α)
    (h : (⟨2, ![N, n2]⟩ : Shape).ShapeCasts ⟨3, ![n0, n1, n2]⟩) (s : Fin n0) (b : Fin n1) (c : Fin n2) (r : Fin N)
    (hr : r.val = s.val * n1 + b.val) :
    shapeCast ⟨3, ![n0, n1, n2]⟩ x h (ix3 s b c) = x (ix2 r c) :=
  shapeCast_apply x h _ _ (by
    rw [Shape.rowMajor_val_three, Shape.rowMajor_val_two]
    show r.val * n2 + c.val = (s.val * n1 + b.val) * n2 + c.val
    rw [hr])

end Cert.LibLayout
-- ==== Proof.LibMaskedSoftmax.lean ====
/-
  The masked softmax of one row, on the extended reals.

  A row `x` of `L` entries comes with one bit per entry; the entries whose bit is 1 are the selected ones. The row's
  maximum is taken over the selected entries (it is -∞ when none is selected), a selected entry gets the weight
  `exp (x l - maximum)` and every other entry the weight 0, and the result is each weight divided by the sum of all the
  weights of the row.

  Beside the definition, the facts that let two different spellings of it meet. A program may give an unselected entry
  its zero weight either by choosing between the exponential and 0 on the bit, or by multiplying the exponential by the
  bit read as the number 0 or 1: on the extended reals the two agree for EVERY value of the exponential, +∞ included,
  because there `0 · (+∞) = 0`. The bit read as a number is positive exactly when the bit is 1. A maximum folded from -∞
  over all the entries of a row is the supremum of the row.
-/
import Idealize.ShloMosaic.PureOps.Ideal.Laws

noncomputable section

namespace Cert.MaskedSoftmax

open Idealize.ShloMosaic

variable {L : Nat}

/-- The largest selected entry of the row; -∞ when no entry is selected. -/
def rowMax (b : Fin L → BitVec 1) (x : Fin L → EReal) : EReal := ⨆ l, if b l = 1#1 then x l else ⊥

/-- An entry's weight: `exp` of its distance below the row's maximum when selected, 0 otherwise. -/
def weight (b : Fin L → BitVec 1) (x : Fin L → EReal) (l : Fin L) : EReal :=
  if b l = 1#1 then Ideal.exp (x l - rowMax b x) else 0

/-- The masked softmax: an entry's weight over the sum of the row's weights. -/
def softmax (b : Fin L → BitVec 1) (x : Fin L → EReal) (l : Fin L) : EReal :=
  Ideal.div (weight b x l) (∑ k, weight b x k)

/-- A bit converted to a float, read unsigned, is the number 1 or 0. -/
theorem bitNum (c : BitVec 1) :
    FloatOps.uitofp (F := Ideal) .f32 c = if c = 1#1 then (1 : EReal) else 0 := by
  rcases BitVec.eq_zero_or_eq_one c with rfl | rfl
  · show (((0#1 : BitVec 1).toNat : ℝ) : EReal) = _
    simp
  · show (((1#1 : BitVec 1).toNat : ℝ) : EReal) = _
    simp

/-- That number is greater than the zero word's value exactly when the bit is 1: the comparison gives the bit back. -/
theorem bitNum_pos (c : BitVec 1) :
    FloatOps.cmpf (F := Ideal) (φ := .f32) .ogt (FloatOps.uitofp (F := Ideal) .f32 c) (Ideal.ofBits .f32 0x00000000#32) = c := by
  rw [Ideal.ofBits_zero_f32, bitNum]
  rcases BitVec.eq_zero_or_eq_one c with rfl | rfl
  · show Ideal.cmp .ogt _ _ = _
    simp [Ideal.cmp]
  · show Ideal.cmp .ogt _ _ = _
    simp [Ideal.cmp]

/-- Multiplying by the bit's number keeps the value on the bit 1 and gives 0 on the bit 0, whatever the value. -/
theorem mul_bitNum (e : EReal) (c : BitVec 1) :
    e * (if c = 1#1 then (1 : EReal) else 0) = if c = 1#1 then e else 0 := by
  split <;> simp

theorem bitNum_mul (e : EReal) (c : BitVec 1) :
    (if c = 1#1 then (1 : EReal) else 0) * e = if c = 1#1 then e else 0 := by
  split <;> simp

/-- A maximum folded from -∞ over every entry is the supremum of the entries. -/
theorem fold_max_bot (f : Fin L → EReal) : (Finset.univ : Finset (Fin L)).fold max ⊥ f = ⨆ l, f l := by
  rw [← Finset.sup_univ_eq_iSup]
  rfl

/-- The word `0xFF800000` is -∞. -/
theorem negInf_word : Ideal.ofBits .f32 0xFF800000#32 = ⊥ := by
  simp [Ideal.ofBits, Ideal.ieee]

end Cert.MaskedSoftmax

end
-- ==== Proof.Payload.lean ====
/-
  What one grid point of the kernel computes, read entry by entry. The point's body is a chain of array operations on
  its blocks: a query block `x0` of 256 rows, the context `x1` of its batch, 256 rows `x2` of mask words and the weight
  matrices `x3`, `x4`, `x5`. At the ideal values a change of number format is the identity, a product of matrices into a
  zero accumulator is the plain sum of products over the contracted axis, a sum along the lanes is the plain sum, and a
  maximum along the lanes started from -∞ is the supremum of the row. Reading each operation at an entry (r, c) turns the
  chain into the scalar formulas of the block specification: the projected query `qB`, the masked scores `smB` and
  their row maximum `rmaxB`, the mixed context `mixB`, and the stored block `outB`. Nothing here is algebra beyond
  `0 + x = x` for the zero accumulators; it is the bookkeeping of indices.
-/
import proofs.«171315_j9234179687166_2_alg».proof.Proof.Gen.KernelIdeal.Skeleton
import proofs.«171315_j9234179687166_2_alg».proof.Proof.BlockSpec
import proofs.«171315_j9234179687166_2_alg».proof.Proof.LibReduceRead
import proofs.«171315_j9234179687166_2_alg».proof.Proof.LibLayout
import proofs.«171315_j9234179687166_2_alg».proof.Proof.LibMaskedSoftmax
import Idealize.ShloMosaic.Lib.Pipeline.Value
import Idealize.ShloMosaic.Lib.ValueLayout
import Idealize.ShloMosaic.Lib.ValueIdx
import Idealize.ShloMosaic.PureOps.Ideal.Laws

noncomputable section

open scoped BigOperators
open Idealize.ShloMosaic Idealize.ShloMosaic.ValueIdx Idealize.ShloMosaic.TcCoe
open Cert.KernelIdeal Cert.KernelIdeal.Gen

namespace Cert.Attn

/-! The auxiliary arrays and the entry lemmas live in their own namespace; only `payload_eq` is stated beside the
    block specification. -/
namespace Payload

/-! ## A product of matrices into a zero accumulator, read at an entry -/

section Dots

/-- The operand indices of the product that contracts both factors along their lanes. -/
theorem d11_lhs0 (i : S256x1024.Idx) (q : dot_S256x1024_S1024x1024_S256x1024_1_1_0_0_n_n.contr.Idx) :
    (dot_S256x1024_S1024x1024_S256x1024_1_1_0_0_n_n.lhsIdx i q 0).val = (i 0).val := by
  unfold DotDims.lhsIdx
  rw [dif_neg (show ¬(0 : Fin S256x1024.rank) ∈ dot_S256x1024_S1024x1024_S256x1024_1_1_0_0_n_n.lhsBatch by decide),
    dif_pos (show (0 : Fin S256x1024.rank) ∈ dot_S256x1024_S1024x1024_S256x1024_1_1_0_0_n_n.lhsNonContracting by decide)]
  rfl
theorem d11_lhs1 (i : S256x1024.Idx) (q : dot_S256x1024_S1024x1024_S256x1024_1_1_0_0_n_n.contr.Idx) :
    (dot_S256x1024_S1024x1024_S256x1024_1_1_0_0_n_n.lhsIdx i q 1).val = (q ⟨0, by decide⟩).val :=
  dot_S256x1024_S1024x1024_S256x1024_1_1_0_0_n_n.lhsIdx_val_of_single rfl i q
theorem d11_rhs0 (i : S256x1024.Idx) (q : dot_S256x1024_S1024x1024_S256x1024_1_1_0_0_n_n.contr.Idx) :
    (dot_S256x1024_S1024x1024_S256x1024_1_1_0_0_n_n.rhsIdx i q 0).val = (i 1).val := by
  unfold DotDims.rhsIdx
  rw [dif_neg (show ¬(0 : Fin S1024x1024.rank) ∈ dot_S256x1024_S1024x1024_S256x1024_1_1_0_0_n_n.rhsBatch by decide),
    dif_pos (show (0 : Fin S1024x1024.rank) ∈ dot_S256x1024_S1024x1024_S256x1024_1_1_0_0_n_n.rhsNonContracting by decide)]
  rfl
theorem d11_rhs1 (i : S256x1024.Idx) (q : dot_S256x1024_S1024x1024_S256x1024_1_1_0_0_n_n.contr.Idx) :
    (dot_S256x1024_S1024x1024_S256x1024_1_1_0_0_n_n.rhsIdx i q 1).val = (q ⟨0, by decide⟩).val :=
  dot_S256x1024_S1024x1024_S256x1024_1_1_0_0_n_n.rhsIdx_val_of_single rfl i q

/-- Both factors contracted along their lanes: the entry (r, e) of a · bᵀ. -/
theorem mm11_apply {φ₁ φ₂ : FTy} (a : FVec Ideal S256x1024 φ₁) (b : FVec Ideal S1024x1024 φ₂) (r : Fin 256) (e : Fin 1024) :
    matmul dot_S256x1024_S1024x1024_S256x1024_1_1_0_0_n_n none a b (constant (F := Ideal) S256x1024 .f32 0x00000000#32) (ix2 r e)
      = ∑ d : Fin 1024, a (ix2 r d) * b (ix2 e d) := by
  refine (Ideal.matmul_constant_zero_apply dot_S256x1024_S1024x1024_S256x1024_1_1_0_0_n_n none a b (ix2 r e)).trans ?_
  rw [← Equiv.sum_comp (contrEquiv1 dot_S256x1024_S1024x1024_S256x1024_1_1_0_0_n_n 1024 rfl rfl).symm]
  refine Finset.sum_congr rfl fun k _ => ?_
  have hk := contrEquiv1_symm_val dot_S256x1024_S1024x1024_S256x1024_1_1_0_0_n_n 1024 rfl rfl k
  have el : dot_S256x1024_S1024x1024_S256x1024_1_1_0_0_n_n.lhsIdx (ix2 r e)
      ((contrEquiv1 dot_S256x1024_S1024x1024_S256x1024_1_1_0_0_n_n 1024 rfl rfl).symm k) = ix2 r k :=
    funext fun c => Fin.ext (by
      match c with
      | ⟨0, _⟩ => exact d11_lhs0 _ _
      | ⟨1, _⟩ => exact (d11_lhs1 _ _).trans hk)
  have er : dot_S256x1024_S1024x1024_S256x1024_1_1_0_0_n_n.rhsIdx (ix2 r e)
      ((contrEquiv1 dot_S256x1024_S1024x1024_S256x1024_1_1_0_0_n_n 1024 rfl rfl).symm k) = ix2 e k :=
    funext fun c => Fin.ext (by
      match c with
      | ⟨0, _⟩ => exact d11_rhs0 _ _
      | ⟨1, _⟩ => exact (d11_rhs1 _ _).trans hk)
  rw [el, er]

/-- The operand indices of the product that contracts the left factor's lanes against the right factor's rows. -/
theorem d10_lhs0 (i : S256x1024.Idx) (q : dot_S256x1024_S1024x1024_S256x1024_1_0_0_1_n_n.contr.Idx) :
    (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide),
    dif_pos (show (0 : Fin S256x1024.rank) ∈ dot_S256x1024_S1024x1024_S256x1024_1_0_0_1_n_n.lhsNonContracting by decide)]
  rfl
theorem d10_lhs1 (i : S256x1024.Idx) (q : dot_S256x1024_S1024x1024_S256x1024_1_0_0_1_n_n.contr.Idx) :
    (dot_S256x1024_S1024x1024_S256x1024_1_0_0_1_n_n.lhsIdx i q 1).val = (q ⟨0, by decide⟩).val :=
  dot_S256x1024_S1024x1024_S256x1024_1_0_0_1_n_n.lhsIdx_val_of_single rfl i q
theorem d10_rhs0 (i : S256x1024.Idx) (q : dot_S256x1024_S1024x1024_S256x1024_1_0_0_1_n_n.contr.Idx) :
    (dot_S256x1024_S1024x1024_S256x1024_1_0_0_1_n_n.rhsIdx i q 0).val = (q ⟨0, by decide⟩).val :=
  dot_S256x1024_S1024x1024_S256x1024_1_0_0_1_n_n.rhsIdx_val_of_single rfl i q
theorem d10_rhs1 (i : S256x1024.Idx) (q : dot_S256x1024_S1024x1024_S256x1024_1_0_0_1_n_n.contr.Idx) :
    (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide),
    dif_pos (show (1 : Fin S1024x1024.rank) ∈ dot_S256x1024_S1024x1024_S256x1024_1_0_0_1_n_n.rhsNonContracting by decide)]
  rfl

/-- The left factor contracted along its lanes, the right one along its rows: the entry (r, c) of a · b. -/
theorem mm10_apply {φ₁ φ₂ : FTy} (a : FVec Ideal S256x1024 φ₁) (b : FVec Ideal S1024x1024 φ₂) (r : Fin 256) (c : Fin 1024) :
    matmul dot_S256x1024_S1024x1024_S256x1024_1_0_0_1_n_n none a b (constant (F := Ideal) S256x1024 .f32 0x00000000#32) (ix2 r c)
      = ∑ k : Fin 1024, a (ix2 r k) * b (ix2 k c) := by
  refine (Ideal.matmul_constant_zero_apply dot_S256x1024_S1024x1024_S256x1024_1_0_0_1_n_n none a b (ix2 r c)).trans ?_
  rw [← Equiv.sum_comp (contrEquiv1 dot_S256x1024_S1024x1024_S256x1024_1_0_0_1_n_n 1024 rfl rfl).symm]
  refine Finset.sum_congr rfl fun k _ => ?_
  have hk := contrEquiv1_symm_val dot_S256x1024_S1024x1024_S256x1024_1_0_0_1_n_n 1024 rfl rfl k
  have el : dot_S256x1024_S1024x1024_S256x1024_1_0_0_1_n_n.lhsIdx (ix2 r c)
      ((contrEquiv1 dot_S256x1024_S1024x1024_S256x1024_1_0_0_1_n_n 1024 rfl rfl).symm k) = ix2 r k :=
    funext fun x => Fin.ext (by
      match x with
      | ⟨0, _⟩ => exact d10_lhs0 _ _
      | ⟨1, _⟩ => exact (d10_lhs1 _ _).trans hk)
  have er : dot_S256x1024_S1024x1024_S256x1024_1_0_0_1_n_n.rhsIdx (ix2 r c)
      ((contrEquiv1 dot_S256x1024_S1024x1024_S256x1024_1_0_0_1_n_n 1024 rfl rfl).symm k) = ix2 k c :=
    funext fun x => Fin.ext (by
      match x with
      | ⟨0, _⟩ => exact (d10_rhs0 _ _).trans hk
      | ⟨1, _⟩ => exact d10_rhs1 _ _)
  rw [el, er]

end Dots

/-! ## Reductions along the lanes and the column layouts, read at an entry -/

section Rows

/-- The sum of a row. -/
theorem rowSum_at (v : FVec Ideal S256x1024 .f32) (r : Fin 256) :
    multiReduction (F := Ideal) .add [1] S256 v 0x00000000#32 reduces_S256x1024_S256 (.inl rfl) rfl (ix1 r)
      = ∑ k : Fin 1024, v (ix2 r k) :=
  Cert.LibReduceRead.rowSum_apply v reduces_S256x1024_S256 (.inl rfl) rfl r

/-- The maximum of a row, started from -∞: the supremum of the row. -/
theorem rowMax_at (v : FVec Ideal S256x1024 .f32) (r : Fin 256) :
    multiReduction (F := Ideal) .maximumf [1] S256 v 0xFF800000#32 reduces_S256x1024_S256 (.inl rfl) rfl (ix1 r)
      = ⨆ k : Fin 1024, v (ix2 r k) := by
  refine (Ideal.multiReduction_maximumf_single v _ reduces_S256x1024_S256 (.inl rfl) rfl (ix1 r)).trans ?_
  show (Finset.univ : Finset (Fin 1024)).fold max (Ideal.ofBits .f32 0xFF800000#32) _ = _
  rw [Cert.MaskedSoftmax.negInf_word]
  refine Eq.trans ?_ (Cert.MaskedSoftmax.fold_max_bot fun k : Fin 1024 => v (ix2 r k))
  exact congrArg (fun f => (Finset.univ : Finset (Fin 1024)).fold max ⊥ f)
    (funext fun k => congrArg v (funext fun c => Fin.ext (by
      match c with
      | ⟨0, _⟩ => rfl
      | ⟨1, _⟩ => rfl)))

/-- A vector of one entry per row, viewed as a column and repeated along the lanes, reads its row's entry. -/
theorem colBcast_at (v : FVec Ideal S256 .f32) (r : Fin 256) (c : Fin 1024) :
    broadcastTo S256x1024 (shapeCast S256x1 v shapeCasts_S256_S256x1) broadcasts_S256x1_S256x1024 (ix2 r c) = v (ix1 r) :=
  (Cert.LibLayout.broadcastTo_a1_ab_apply _ broadcasts_S256x1_S256x1024 r c).trans
    (Cert.LibLayout.shapeCast_a_a1_apply v shapeCasts_S256_S256x1 r 0)

/-- A column repeated along the lanes reads its row's entry. -/
theorem bcast_at (v : FVec Ideal S256x1 .f32) (r : Fin 256) (c : Fin 1024) :
    broadcastTo S256x1024 v broadcasts_S256x1_S256x1024 (ix2 r c) = v (ix2 r (0 : Fin 1)) :=
  Cert.LibLayout.broadcastTo_a1_ab_apply v broadcasts_S256x1_S256x1024 r c

/-- A vector viewed as a column reads its row's entry. -/
theorem col_at (v : FVec Ideal S256 .f32) (r : Fin 256) :
    shapeCast S256x1 v shapeCasts_S256_S256x1 (ix2 r (0 : Fin 1)) = v (ix1 r) :=
  Cert.LibLayout.shapeCast_a_a1_apply v shapeCasts_S256_S256x1 r 0

end Rows

/-! ## The projected query -/

/-- The first payload at (r, e): the projected query of row r. -/
theorem pay2_at (x0 : Vec Ideal S1x256x1024 .f32) (x3 : Vec Ideal S1024x1024 .bf16) (r : Fin 256) (e : Fin 1024) :
    k0_pay2 (F := Ideal) x0 x3 (ix2 r e) = qB x0 x3 r e := by
  unfold k0_pay2 qB
  refine (mm11_apply _ _ r e).trans ?_
  refine Finset.sum_congr rfl fun d _ => ?_
  rw [shapeCast_self]
  exact congrArg (· * x3 (ix2 e d)) (shapeCast_1ab_ab_apply x0 shapeCasts_S1x256x1024_S256x1024 r d)

/-! ## The mixed context

The third payload, cut at its named intermediate arrays: the mask as numbers, the context as a matrix, the masked
scores, their row maxima, the shifted exponentials and the masked weights. -/

section Mix

variable (x0 : Vec Ideal S1x256x1024 .f32) (x1 : Vec Ideal S1x1024x1024 .f32) (x2 : Vec Ideal S1x256x1024 .i32)
  (x3 : Vec Ideal S1024x1024 .bf16)

/-- The mask block as numbers. -/
def mV : FVec Ideal S256x1024 .f32 :=
  sitofp .f32 (shapeCast S256x1024 x2 shapeCasts_S1x256x1024_S256x1024)

/-- The context of the batch as a matrix. -/
def cV : FVec Ideal S1024x1024 .bf16 :=
  truncf .bf16 (shapeCast S1024x1024 x1 shapeCasts_S1x1024x1024_S1024x1024) bitsLt_bf16_f32

/-- The masked scores. -/
def smV : FVec Ideal S256x1024 .f32 :=
  mulf (matmul dot_S256x1024_S1024x1024_S256x1024_1_1_0_0_n_n none (k0_pay2 x0 x3) (cV x1)
    (constant S256x1024 .f32 0x00000000#32)) (mV x2)

/-- Their row maxima. -/
def mxV : FVec Ideal S256 .f32 :=
  multiReduction .maximumf [1] S256 (smV x0 x1 x2 x3) 0xFF800000#32 reduces_S256x1024_S256 (.inl rfl) rfl

/-- The shifted exponentials. -/
def pV : FVec Ideal S256x1024 .f32 :=
  exp (subf (smV x0 x1 x2 x3)
    (broadcastTo S256x1024 (shapeCast S256x1 (mxV x0 x1 x2 x3) shapeCasts_S256_S256x1) broadcasts_S256x1_S256x1024))

/-- The masked weights. -/
def aV : FVec Ideal S256x1024 .f32 := mulf (pV x0 x1 x2 x3) (mV x2)

/-- The third payload over those arrays: the weighted sum of the context's rows over the normaliser. -/
theorem pay3_eq :
    k0_pay3 (F := Ideal) x0 x3 x1 x2
      = divf (matmul dot_S256x1024_S1024x1024_S256x1024_1_0_0_1_n_n none
            (truncf .bf16 (aV x0 x1 x2 x3) bitsLt_bf16_f32) (cV x1) (constant S256x1024 .f32 0x00000000#32))
          (broadcastTo S256x1024
            (addf
              (shapeCast S256x1
                (multiReduction .add [1] S256 (aV x0 x1 x2 x3) 0x00000000#32 reduces_S256x1024_S256 (.inl rfl) rfl)
                shapeCasts_S256_S256x1)
              (mulf (broadcast S256x1 (Scalar.ofBits .f32 0x29E12E13#32))
                (shapeCast S256x1
                  (multiReduction .add [1] S256 (pV x0 x1 x2 x3) 0x00000000#32 reduces_S256x1024_S256 (.inl rfl) rfl)
                  shapeCasts_S256_S256x1)))
            broadcasts_S256x1_S256x1024) := rfl

theorem mV_at (r : Fin 256) (k : Fin 1024) : mV x2 (ix2 r k) = mfB x2 r k := by
  unfold mV mfB
  rw [sitofp_apply, shapeCast_1ab_ab_apply]
  rfl

theorem cV_at (k d : Fin 1024) : cV x1 (ix2 k d) = x1 (ix3 0 k d) := by
  unfold cV
  rw [truncf_apply, shapeCast_1ab_ab_apply]

theorem smV_at (r : Fin 256) (k : Fin 1024) : smV x0 x1 x2 x3 (ix2 r k) = smB x0 x1 x2 x3 r k := by
  unfold smV smB scB
  rw [mulf_apply, mV_at]
  refine congrArg (· * mfB x2 r k) ((mm11_apply _ _ r k).trans (Finset.sum_congr rfl fun d _ => ?_))
  rw [pay2_at, cV_at]

theorem mxV_at (r : Fin 256) : mxV x0 x1 x2 x3 (ix1 r) = rmaxB x0 x1 x2 x3 r := by
  unfold mxV rmaxB
  refine (rowMax_at _ r).trans ?_
  exact congrArg iSup (funext fun k => smV_at x0 x1 x2 x3 r k)

theorem pV_at (r : Fin 256) (k : Fin 1024) :
    pV x0 x1 x2 x3 (ix2 r k) = Ideal.exp (smB x0 x1 x2 x3 r k - rmaxB x0 x1 x2 x3 r) := by
  unfold pV
  show Ideal.exp (smV x0 x1 x2 x3 (ix2 r k) - broadcastTo S256x1024 (shapeCast S256x1 (mxV x0 x1 x2 x3) shapeCasts_S256_S256x1)
    broadcasts_S256x1_S256x1024 (ix2 r k)) = _
  rw [colBcast_at, smV_at, mxV_at]

theorem aV_at (r : Fin 256) (k : Fin 1024) :
    aV x0 x1 x2 x3 (ix2 r k) = Ideal.exp (smB x0 x1 x2 x3 r k - rmaxB x0 x1 x2 x3 r) * mfB x2 r k := by
  unfold aV
  rw [mulf_apply, pV_at, mV_at]

/-- The third payload at (r, c): the mixed context of row r. -/
theorem pay3_at (r : Fin 256) (c : Fin 1024) :
    k0_pay3 (F := Ideal) x0 x3 x1 x2 (ix2 r c) = mixB x0 x1 x2 x3 r c := by
  rw [pay3_eq]
  unfold mixB kRow
  rw [divf_apply]
  refine congrArg₂ Ideal.div ?_ ?_
  · refine (mm10_apply _ _ r c).trans (Finset.sum_congr rfl fun k _ => ?_)
    rw [truncf_apply, aV_at, cV_at]
  · rw [bcast_at, addf_apply, mulf_apply, col_at, col_at, rowSum_at, rowSum_at, broadcast_apply]
    simp only [aV_at, pV_at]
    rfl

end Mix

/-! ## The stored block -/

/-- The last payload at (u, r, c): tanh of the two products of row r against row c of the output weights' halves. -/
theorem pay1_at (v6 : FVec Ideal S256x1024 .bf16) (v31 : FVec Ideal S256x1024 .f32) (v33 v35 : FVec Ideal S1024x1024 .bf16)
    (u : Fin 1) (r : Fin 256) (c : Fin 1024) :
    k0_pay1 (F := Ideal) v6 v31 v33 v35 (ix3 u r c)
      = Ideal.tanh ((∑ d : Fin 1024, v31 (ix2 r d) * v33 (ix2 c d)) + ∑ d : Fin 1024, v6 (ix2 r d) * v35 (ix2 c d)) := by
  unfold k0_pay1
  rw [shapeCast_ab_1ab_apply]
  show Ideal.tanh (matmul dot_S256x1024_S1024x1024_S256x1024_1_1_0_0_n_n none (truncf .bf16 v31 bitsLt_bf16_f32) v33
      (constant S256x1024 .f32 0x00000000#32) (ix2 r c)
    + matmul dot_S256x1024_S1024x1024_S256x1024_1_1_0_0_n_n none v6 v35 (constant S256x1024 .f32 0x00000000#32) (ix2 r c)) = _
  rw [mm11_apply, mm11_apply]
  rfl

end Payload

/-- What one grid point stores, entry by entry: the block formula. -/
theorem payload_eq (x0 : Vec Ideal S1x256x1024 .f32) (x1 : Vec Ideal S1x1024x1024 .f32) (x2 : Vec Ideal S1x256x1024 .i32)
    (x3 x4 x5 : Vec Ideal S1024x1024 .bf16) :
    k0_pay1 (F := Ideal) (k0_pay2 x0 x3) (k0_pay3 x0 x3 x1 x2) (k0_pay4 x4) (k0_pay5 x5) = outB x0 x1 x2 x3 x4 x5 := by
  funext j
  obtain ⟨u, r, c, rfl⟩ : ∃ (u : Fin 1) (r : Fin 256) (c : Fin 1024), j = ix3 u r c := ⟨j 0, j 1, j 2, eq_ix3 j⟩
  rw [Payload.pay1_at]
  unfold outB k0_pay4 k0_pay5
  rw [shapeCast_self, shapeCast_self]
  simp only [Payload.pay3_at, Payload.pay2_at]

end Cert.Attn

end
-- ==== Proof.HostPrefix.lean ====
/-
  What the region finds in the buffers that @main's six host operations write before it, as functions of the argument
  arrays at the ideal instance. A conversion to bf16 is the identity there, so:
    the input-projection weights are `W_in` itself;
    the two output-projection weights are the left and the right 1024 columns of `W_out` (unit-stride slices);
    the mask block array is the flat mask re-laid, entry (b, r, k) being row b·1024 + r, column k.
-/
import proofs.«171315_j9234179687166_2_alg».proof.Proof.Gen.KernelIdeal.Frame
import proofs.«171315_j9234179687166_2_alg».proof.Proof.Spec
import Idealize.ShloMosaic.Lib.Pipeline.Value
import Idealize.ShloMosaic.Lib.StableHlo.Run

noncomputable section

open Idealize.ShloMosaic Idealize.ShloMosaic.TcCoe Idealize.SL.Sem Idealize.ShloMosaic.ValueIdx Idealize.ShloMosaic.StableHlo
open Cert.KernelIdeal Cert.KernelIdeal.Gen

namespace Cert.Attn

variable (m : (ℓ : Loc nD τ sig) → Buf (Elt Ideal) ℓ) (c : Dev nD)

/-- The input-projection weights the region stages are `W_in`. -/
theorem V_v0 (i : S1024x1024.Idx) :
    (V m c main_v0 : S1024x1024.Idx → EReal) i = (m ((c : Thread nD τ).loc main_arg3) : S1024x1024.Idx → EReal) i := by
  have e : (V m c main_v0 : S1024x1024.Idx → EReal)
      = (truncf .bf16 (m ((c : Thread nD τ).loc main_arg3) : FVec Ideal S1024x1024 .f32) bitsLt_bf16_f32 : FVec Ideal S1024x1024 .bf16) := by
    dsimp only [Gen.V, Gen.hostOps0]; after_results <;> rfl
  rw [e]; rfl

/-- The first output-projection weights are the left 1024 columns of `W_out`. -/
theorem V_v2 (d c' : Fin 1024) :
    (V m c main_v2 : S1024x1024.Idx → EReal) (ix2 d c')
      = (m ((c : Thread nD τ).loc main_arg4) : S1024x2048.Idx → EReal) (ix2 d (colL c')) := by
  have e : (V m c main_v2 : S1024x1024.Idx → EReal)
      = (truncf .bf16 (extractStridedSlice S1024x1024 ![0, 0] (m ((c : Thread nD τ).loc main_arg4) : FVec Ideal S1024x2048 .f32) slices_S1024x2048_S1024x1024_0_0 : FVec Ideal S1024x1024 .f32) bitsLt_bf16_f32 : FVec Ideal S1024x1024 .bf16) := by
    dsimp only [Gen.V, Gen.hostOps0]; after_results <;> rfl
  rw [e]
  show extractStridedSlice S1024x1024 ![0, 0] (m ((c : Thread nD τ).loc main_arg4) : FVec Ideal S1024x2048 .f32) slices_S1024x2048_S1024x1024_0_0 (ix2 d c') = _
  refine extractStridedSlice_apply _ _ _ _ (ix2 d (colL c')) fun a => ?_
  match a with
  | ⟨0, _⟩ => show d.val = 0 + d.val; omega
  | ⟨1, _⟩ => show (colL c').val = 0 + c'.val; simp [colL]

/-- The second output-projection weights are the right 1024 columns of `W_out`. -/
theorem V_v4 (d c' : Fin 1024) :
    (V m c main_v4 : S1024x1024.Idx → EReal) (ix2 d c')
      = (m ((c : Thread nD τ).loc main_arg4) : S1024x2048.Idx → EReal) (ix2 d (colR c')) := by
  have e : (V m c main_v4 : S1024x1024.Idx → EReal)
      = (truncf .bf16 (extractStridedSlice S1024x1024 ![0, 1024] (m ((c : Thread nD τ).loc main_arg4) : FVec Ideal S1024x2048 .f32) slices_S1024x2048_S1024x1024_0_1024 : FVec Ideal S1024x1024 .f32) bitsLt_bf16_f32 : FVec Ideal S1024x1024 .bf16) := by
    dsimp only [Gen.V, Gen.hostOps0]; after_results <;> rfl
  rw [e]
  show extractStridedSlice S1024x1024 ![0, 1024] (m ((c : Thread nD τ).loc main_arg4) : FVec Ideal S1024x2048 .f32) slices_S1024x2048_S1024x1024_0_1024 (ix2 d c') = _
  refine extractStridedSlice_apply _ _ _ _ (ix2 d (colR c')) fun a => ?_
  match a with
  | ⟨0, _⟩ => show d.val = 0 + d.val; omega
  | ⟨1, _⟩ => show (colR c').val = 1024 + c'.val; simp [colR]

/-- The mask array the region stages is the flat mask re-laid: entry (b, r, k) is row b·1024 + r, column k. -/
theorem V_v5 (b : Fin 32) (r k : Fin 1024) :
    (V m c main_v5 : S32x1024x1024.Idx → BitVec 32) (ix3 b r k)
      = (m ((c : Thread nD τ).loc main_arg2) : S32768x1024.Idx → BitVec 32) (ix2 (mrow b r) k) := by
  have e : (V m c main_v5 : S32x1024x1024.Idx → BitVec 32)
      = shapeCast S32x1024x1024 (m ((c : Thread nD τ).loc main_arg2) : S32768x1024.Idx → BitVec 32) shapeCasts_S32768x1024_S32x1024x1024 := by
    dsimp only [Gen.V, Gen.hostOps0]; after_results <;> rfl
  rw [e]
  refine shapeCast_apply _ _ _ (ix2 (mrow b r) k) ?_
  rw [Shape.rowMajor_val_two, Shape.rowMajor_val_three]
  show (mrow b r).val * 1024 + k.val = (b.val * 1024 + r.val) * 1024 + k.val
  simp [mrow]

end Cert.Attn

end
-- ==== Proof.KernelValue.lean ====
/-
  The kernel's run, from one grid point's block to the whole result array. The grid has 32 × 4 points; point t works on
  batch b = t / 4 and query block qi = t % 4, that is on rows qi · 256 … qi · 256 + 255 of batch b. Its seven windows
  read: rows of the query array and of the re-laid mask (blocks (b, qi, 0) of extent [1, 256, 1024]), the whole batch b
  of the context (block (b, 0, 0) of extent [1, 1024, 1024]), and the three weight matrices whole. So each block entry
  is an entry of an argument array; the block the point stores is the block formula of those blocks, which is the array
  formula Gk at row qi · 256 + r of batch b; the 128 stored blocks tile the result array (row r of batch b lies in the
  block of point b · 4 + r / 256); hence the array ends holding Gk of the arguments.
-/
import proofs.«171315_j9234179687166_2_alg».proof.Proof.Gen.KernelIdeal.Value
import proofs.«171315_j9234179687166_2_alg».proof.Proof.Spec
import proofs.«171315_j9234179687166_2_alg».proof.Proof.BlockSpec
import proofs.«171315_j9234179687166_2_alg».proof.Proof.BlockToArray
import proofs.«171315_j9234179687166_2_alg».proof.Proof.Payload
import proofs.«171315_j9234179687166_2_alg».proof.Proof.HostPrefix
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)
open Cert.KernelIdeal Cert.KernelIdeal.Gen

namespace Cert.Attn

variable (m : (ℓ : Loc nD τ sig) → Buf (Elt Ideal) ℓ) (ρ : Dev nD → PrngReg)

/-! ## The grid points and the blocks' positions -/

/-- The windows' block indices at every grid point, decided over the 128 points: the query, mask and result blocks sit
    at (t / 4, t % 4, 0), the context block at (t / 4, 0, 0), the weight blocks at (0, 0). -/
theorem grid_index_facts : ∀ t : Fin cfg0.N,
    win0_0.index t (0 : Fin 3) = t.val / 4 ∧ win0_0.index t (1 : Fin 3) = t.val % 4 ∧ win0_0.index t (2 : Fin 3) = 0
    ∧ win0_1.index t (0 : Fin 3) = t.val / 4 ∧ win0_1.index t (1 : Fin 3) = 0 ∧ win0_1.index t (2 : Fin 3) = 0
    ∧ win0_2.index t (0 : Fin 3) = t.val / 4 ∧ win0_2.index t (1 : Fin 3) = t.val % 4 ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 3) = t.val / 4 ∧ win0_6.index t (1 : Fin 3) = t.val % 4 ∧ win0_6.index t (2 : Fin 3) = 0 :=
  (by decide +kernel : ∀ t : Fin grid0.N, _)

/-- A grid point is below 128. -/
theorem point_lt (t : Fin cfg0.N) : t.val < 128 := by
  have h : t.val < cfg0.N := t.isLt
  have e : cfg0.N = 128 := N_0
  omega

/-- The batch a grid point works on. -/
def ptBatch (t : Fin cfg0.N) : Fin 32 := ⟨t.val / 4, by have := point_lt t; omega⟩
/-- The query block a grid point works on. -/
def ptBlock (t : Fin cfg0.N) : Fin 4 := ⟨t.val % 4, by omega⟩

/-! ## Each input block, entry by entry, as entries of the argument arrays -/

/-- The query block: rows qi · 256 + r of batch b of the query array. -/
theorem queryBlock_at (c : Dev nD) (t : Fin cfg0.N) (r : Fin 256) (d : Fin 1024) :
    (iblk m c 0 t : Vec Ideal S1x256x1024 .f32) (ix3 0 r d)
      = (m ((c : Thread nD τ).loc main_arg0) : S32x1024x1024.Idx → EReal) (ix3 (ptBatch t) (brow (ptBlock t) r) d) := by
  obtain ⟨e0, e1, e2, -⟩ := grid_index_facts t
  show V m c main_arg0 (((cfg0.win 0).blk t).view.emb (ix3 0 r d)) = _
  refine (congrFun (V_main_arg0 m c) _).trans (congrArg _ (funext fun a => Fin.ext ?_))
  match a with
  | ⟨0, _⟩ => show win0_0.index t (0 : Fin 3) * 1 + 1 * 0 = t.val / 4; omega
  | ⟨1, _⟩ => show win0_0.index t (1 : Fin 3) * 256 + 1 * r.val = t.val % 4 * 256 + r.val; omega
  | ⟨2, _⟩ => show win0_0.index t (2 : Fin 3) * 1024 + 1 * d.val = d.val; omega

/-- The context block: the whole batch b of the context array. -/
theorem contextBlock_at (c : Dev nD) (t : Fin cfg0.N) (k d : Fin 1024) :
    (iblk m c 1 t : Vec Ideal S1x1024x1024 .f32) (ix3 0 k d)
      = (m ((c : Thread nD τ).loc main_arg1) : S32x1024x1024.Idx → EReal) (ix3 (ptBatch t) k d) := by
  obtain ⟨-, -, -, e0, e1, e2, -⟩ := grid_index_facts t
  show V m c main_arg1 (((cfg0.win 1).blk t).view.emb (ix3 0 k d)) = _
  refine (congrFun (V_main_arg1 m c) _).trans (congrArg _ (funext fun a => Fin.ext ?_))
  match a with
  | ⟨0, _⟩ => show win0_1.index t (0 : Fin 3) * 1 + 1 * 0 = t.val / 4; omega
  | ⟨1, _⟩ => show win0_1.index t (1 : Fin 3) * 1024 + 1 * k.val = k.val; omega
  | ⟨2, _⟩ => show win0_1.index t (2 : Fin 3) * 1024 + 1 * d.val = d.val; omega

/-- The mask block: rows b · 1024 + qi · 256 + r of the flat mask. -/
theorem maskBlock_at (c : Dev nD) (t : Fin cfg0.N) (r : Fin 256) (k : Fin 1024) :
    (iblk m c 2 t : Vec Ideal S1x256x1024 .i32) (ix3 0 r k)
      = (m ((c : Thread nD τ).loc main_arg2) : S32768x1024.Idx → BitVec 32) (ix2 (mrow (ptBatch t) (brow (ptBlock t) r)) k) := by
  obtain ⟨-, -, -, -, -, -, e0, e1, e2, -⟩ := grid_index_facts t
  show V m c main_v5 (((cfg0.win 2).blk t).view.emb (ix3 0 r k)) = _
  have hemb : ((cfg0.win 2).blk t).view.emb (ix3 0 r k) = (ix3 (ptBatch t) (brow (ptBlock t) r) k : S32x1024x1024.Idx) :=
    funext fun a => Fin.ext (by
      match a with
      | ⟨0, _⟩ => show win0_2.index t (0 : Fin 3) * 1 + 1 * 0 = t.val / 4; omega
      | ⟨1, _⟩ => show win0_2.index t (1 : Fin 3) * 256 + 1 * r.val = t.val % 4 * 256 + r.val; omega
      | ⟨2, _⟩ => show win0_2.index t (2 : Fin 3) * 1024 + 1 * k.val = k.val; omega)
  exact (congrArg (V m c main_v5 : S32x1024x1024.Idx → BitVec 32) hemb).trans (V_v5 m c (ptBatch t) (brow (ptBlock t) r) k)

/-- The input-projection block: the whole matrix. -/
theorem winBlock_at (c : Dev nD) (t : Fin cfg0.N) (e d : Fin 1024) :
    (iblk m c 3 t : Vec Ideal S1024x1024 .bf16) (ix2 e d)
      = (m ((c : Thread nD τ).loc main_arg3) : S1024x1024.Idx → EReal) (ix2 e d) := by
  obtain ⟨-, -, -, -, -, -, -, -, -, e0, e1, -⟩ := grid_index_facts t
  show V m c main_v0 (((cfg0.win 3).blk t).view.emb (ix2 e d)) = _
  have hemb : ((cfg0.win 3).blk t).view.emb (ix2 e d) = (ix2 e d : S1024x1024.Idx) :=
    funext fun a => Fin.ext (by
      match a with
      | ⟨0, _⟩ => show win0_3.index t (0 : Fin 2) * 1024 + 1 * e.val = e.val; omega
      | ⟨1, _⟩ => show win0_3.index t (1 : Fin 2) * 1024 + 1 * d.val = d.val; omega)
  exact (congrArg (V m c main_v0 : S1024x1024.Idx → EReal) hemb).trans (V_v0 m c (ix2 e d))

/-- The first output-projection block: the left half of the output weights. -/
theorem woutLBlock_at (c : Dev nD) (t : Fin cfg0.N) (d e : Fin 1024) :
    (iblk m c 4 t : Vec Ideal S1024x1024 .bf16) (ix2 d e)
      = (m ((c : Thread nD τ).loc main_arg4) : S1024x2048.Idx → EReal) (ix2 d (colL e)) := by
  obtain ⟨-, -, -, -, -, -, -, -, -, -, -, e0, e1, -⟩ := grid_index_facts t
  show V m c main_v2 (((cfg0.win 4).blk t).view.emb (ix2 d e)) = _
  have hemb : ((cfg0.win 4).blk t).view.emb (ix2 d e) = (ix2 d e : S1024x1024.Idx) :=
    funext fun a => Fin.ext (by
      match a with
      | ⟨0, _⟩ => show win0_4.index t (0 : Fin 2) * 1024 + 1 * d.val = d.val; omega
      | ⟨1, _⟩ => show win0_4.index t (1 : Fin 2) * 1024 + 1 * e.val = e.val; omega)
  exact (congrArg (V m c main_v2 : S1024x1024.Idx → EReal) hemb).trans (V_v2 m c d e)

/-- The second output-projection block: the right half of the output weights. -/
theorem woutRBlock_at (c : Dev nD) (t : Fin cfg0.N) (d e : Fin 1024) :
    (iblk m c 5 t : Vec Ideal S1024x1024 .bf16) (ix2 d e)
      = (m ((c : Thread nD τ).loc main_arg4) : S1024x2048.Idx → EReal) (ix2 d (colR e)) := by
  obtain ⟨-, -, -, -, -, -, -, -, -, -, -, -, -, e0, e1, -⟩ := grid_index_facts t
  show V m c main_v4 (((cfg0.win 5).blk t).view.emb (ix2 d e)) = _
  have hemb : ((cfg0.win 5).blk t).view.emb (ix2 d e) = (ix2 d e : S1024x1024.Idx) :=
    funext fun a => Fin.ext (by
      match a with
      | ⟨0, _⟩ => show win0_5.index t (0 : Fin 2) * 1024 + 1 * d.val = d.val; omega
      | ⟨1, _⟩ => show win0_5.index t (1 : Fin 2) * 1024 + 1 * e.val = e.val; omega)
  exact (congrArg (V m c main_v4 : S1024x1024.Idx → EReal) hemb).trans (V_v4 m c d e)

/-! ## What a point stores -/

theorem zero3 : (![0, 0, 0] : Fin 3 → Nat) = fun _ => 0 := funext fun a => by fin_cases a <;> rfl
theorem zero2 : (![0, 0] : Fin 2 → Nat) = fun _ => 0 := funext fun a => by fin_cases a <;> rfl

/-- The body's one store fills the whole staging buffer, and every load reads a whole block: what the buffer holds
    after the body is the block formula of the blocks. -/
theorem stored_block_eq (x0 : Vec Ideal S1x256x1024 .f32) (x1 : Vec Ideal S1x1024x1024 .f32) (x2 : Vec Ideal S1x256x1024 .i32)
    (x3 x4 x5 : Vec Ideal S1024x1024 .bf16) : out0_6 x0 x1 x2 x3 x4 x5 = outB x0 x1 x2 x3 x4 x5 := by
  unfold Gen.out0_6
  rw [View.canon_unit_zero zero3]
  simp only [View.ld_unit_zero (S := S1x256x1024) zero3, View.ld_unit_zero (S := S1024x1024) zero2,
    View.ld_unit_zero (S := S1x1024x1024) zero3]
  exact payload_eq x0 x1 x2 x3 x4 x5

/-- The result array the kernel is to leave: the kernel-side formula of the five arguments as launched. -/
abbrev resultOf (c : Dev nD) : S32x1024x1024.Idx → EReal :=
  Gk (m ((c : Thread nD τ).loc main_arg0)) (m ((c : Thread nD τ).loc main_arg1)) (m ((c : Thread nD τ).loc main_arg2))
    (m ((c : Thread nD τ).loc main_arg3)) (m ((c : Thread nD τ).loc main_arg4))

/-- WHAT POINT t WRITES BACK is block t of the result formula. -/
theorem flushed_eq (c : Dev nD) (t : Fin cfg0.N) :
    (dats m 0 c).flushed 6 t = ((cfg0.win 6).blk t).view.read (Elt Ideal) (resultOf m c) := by
  rw [Value.flushed6]
  obtain ⟨-, -, -, -, -, -, -, -, -, -, -, -, -, -, -, e0, e1, e2⟩ := grid_index_facts t
  funext j
  revert j
  show ∀ j : S1x256x1024.Idx, out0_6 (iblk m c 0 t) (iblk m c 1 t) (iblk m c 2 t) (iblk m c 3 t) (iblk m c 4 t) (iblk m c 5 t) j
    = resultOf m c (((cfg0.win 6).blk t).view.emb j)
  intro j
  obtain ⟨u, r, d, rfl⟩ : ∃ (u : Fin 1) (r : Fin 256) (d : Fin 1024), j = ix3 u r d := ⟨j 0, j 1, j 2, eq_ix3 j⟩
  obtain rfl : u = 0 := Fin.ext (by omega)
  refine (congrFun (stored_block_eq (iblk m c 0 t) (iblk m c 1 t) (iblk m c 2 t) (iblk m c 3 t) (iblk m c 4 t) (iblk m c 5 t)) (ix3 0 r d)).trans ?_
  refine (outB_eq_Gk (m ((c : Thread nD τ).loc main_arg0)) (m ((c : Thread nD τ).loc main_arg1)) (m ((c : Thread nD τ).loc main_arg2))
    (m ((c : Thread nD τ).loc main_arg3)) (m ((c : Thread nD τ).loc main_arg4))
    (iblk m c 0 t) (iblk m c 1 t) (iblk m c 2 t) (iblk m c 3 t) (iblk m c 4 t) (iblk m c 5 t) (ptBatch t) (ptBlock t)
    (queryBlock_at m c t) (contextBlock_at m c t) (maskBlock_at m c t) (winBlock_at m c t) (woutLBlock_at m c t) (woutRBlock_at m c t) r d).trans ?_
  refine congrArg (resultOf m c) (funext fun a => Fin.ext ?_)
  match a with
  | ⟨0, _⟩ => show t.val / 4 = win0_6.index t (0 : Fin 3) * 1 + 1 * 0; omega
  | ⟨1, _⟩ => show t.val % 4 * 256 + r.val = win0_6.index t (1 : Fin 3) * 256 + 1 * r.val; omega
  | ⟨2, _⟩ => show d.val = win0_6.index t (2 : Fin 3) * 1024 + 1 * d.val; omega

/-! ## The stored blocks tile the result array -/

/-- An index of the result array is in point t's block iff each coordinate is in the block's range on its axis. -/
theorem mem_block (t : Fin cfg0.N) (i : S32x1024x1024.Idx) :
    i ∈ ((cfg0.win 6).blk t).view.set ↔ ∀ a : Fin 3, win0_6.index t a * S1x256x1024.size a ≤ (i a).val
      ∧ (i a).val < win0_6.index t a * S1x256x1024.size a + S1x256x1024.size a := by
  show i ∈ ((View.whole main_v6).slice (win0_6.rect t)).set ↔ _
  rw [View.set_slice_whole, Rect.mem_set_unit]
  exact Iff.rfl

/-- Every index of the result array lies in the block of a point that writes back: row r of batch b in the block of
    point b · 4 + r / 256. -/
theorem blocks_cover (i : S32x1024x1024.Idx) :
    ∃ t : Fin cfg0.N, (cfg0.win 6).flush t = true ∧ i ∈ ((cfg0.win 6).blk t).view.set := by
  have h0 : (i 0).val < 32 := (i 0).isLt
  have h1 : (i 1).val < 1024 := (i 1).isLt
  have h2 : (i 2).val < 1024 := (i 2).isLt
  have hN : cfg0.N = 128 := N_0
  obtain ⟨t, tv⟩ : ∃ t : Fin cfg0.N, t.val = (i 0).val * 4 + (i 1).val / 256 := ⟨⟨(i 0).val * 4 + (i 1).val / 256, by omega⟩, rfl⟩
  obtain ⟨-, -, -, -, -, -, -, -, -, -, -, -, -, -, -, e0, e1, e2⟩ := grid_index_facts t
  refine ⟨t, flush0_6 t, ?_⟩
  rw [mem_block]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 256 ≤ (i 1).val ∧ (i 1).val < win0_6.index t (1 : Fin 3) * 256 + 256; omega
  | ⟨2, _⟩ => show win0_6.index t (2 : Fin 3) * 1024 ≤ (i 2).val ∧ (i 2).val < win0_6.index t (2 : Fin 3) * 1024 + 1024; omega

/-- THE RESULT ARRAY after the run is the kernel-side formula of the arguments. -/
theorem final_array (c : Dev nD) : (dats m 0 c).arrAt 6 cfg0.N = resultOf m c :=
  (dats m 0 c).arrAt_eq_of_cover 6 (resultOf m c) (fun t _ => flushed_eq m c t) blocks_cover

/-! ## The run -/

/-- The kernel's run: the result array ends at Gk of the five arguments, the arguments unchanged. -/
theorem kernel_run : θ_run defs (onTc (τ := τ) (main (F := Ideal))) ⟨m, fun _ => 0, ρ⟩ fun r => ∀ c : Dev nD,
      r.2.mem ((c : Thread nD τ).loc main_v6) = Gk (m ((c : Thread nD τ).loc main_arg0)) (m ((c : Thread nD τ).loc main_arg1))
          (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final_array m c), (h c).2⟩)
    (Cert.KernelIdeal.Value.run_blocks m ρ)

end Cert.Attn

end
-- ==== Proof.RefLow.lean ====
/-
  The lower half of the reference program, read index by index, is the specification's formulas.

  Each intermediate array is read at explicit coordinates (batch b, query row r, key k or column e) and identified
  with the scalar formula of the specification that bears the same meaning: the projected query (a sum over the 1024
  input columns), the scores (a sum over the 1024 columns of the projected query against the context), the mask read
  as a number (the integer array regrouped from [32768, 1024] to [32, 1024, 1024]: entry (b, r, k) sits at flat row
  b·1024 + r, column k), the masked scores (their product), and the row maximum: a maximum folded from -∞ over the
  keys is the supremum over the keys, and the maximum of -∞ and x is x.
-/
import proofs.«171315_j9234179687166_2_alg».proof.Proof.RefReadP
import proofs.«171315_j9234179687166_2_alg».proof.Proof.Spec
import proofs.«171315_j9234179687166_2_alg».proof.Proof.LibMaskedSoftmax
import Idealize.ShloMosaic.Lib.ValueIdx
import Idealize.ShloMosaic.PureOps.Ideal.Laws

noncomputable section

open scoped BigOperators

namespace Cert.Attn

open Cert.ReferenceIdeal Cert.ReferenceIdeal.Gen Cert.ReferenceIdeal.Read Idealize.ShloMosaic Idealize.ShloMosaic.ValueIdx

/-- Two rank-3 indices with the same three coordinates are equal. -/
local macro "idx_rfl3" : tactic =>
  `(tactic| exact funext fun a => Fin.ext (by match a with | ⟨0, _⟩ => rfl | ⟨1, _⟩ => rfl | ⟨2, _⟩ => rfl))
/-- Two rank-2 indices with the same two coordinates are equal. -/
local macro "idx_rfl2" : tactic =>
  `(tactic| exact funext fun a => Fin.ext (by match a with | ⟨0, _⟩ => rfl | ⟨1, _⟩ => rfl))

variable (x0 x1 : (⟨S32x1024x1024, .f32⟩ : BufTy).Contents (Elt Ideal))
  (x2 : (⟨S32768x1024, .i32⟩ : BufTy).Contents (Elt Ideal))
  (x3 : (⟨S1024x1024, .f32⟩ : BufTy).Contents (Elt Ideal))

/-! ## The projected query and the scores -/

theorem lidx0_eq (b : Fin 32) (r e d : Fin 1024) : lidx_main_v0 (ix3 b r e) d = ix3 b r d := by idx_rfl3
theorem ridx0_eq (b : Fin 32) (r e d : Fin 1024) : ridx_main_v0 (ix3 b r e) d = ix2 e d := by idx_rfl2

/-- The first product at (b, r, e) is the projected query. -/
theorem ref_v0 (b : Fin 32) (r e : Fin 1024) :
    val_main_v0 (F := Ideal) x0 x3 (ix3 b r e) = qv x0 x3 b r e := by
  rw [val_main_v0_apply]
  unfold qv
  refine Finset.sum_congr rfl fun d _ => ?_
  rw [lidx0_eq, ridx0_eq]

theorem lidx1_eq (b : Fin 32) (r k d : Fin 1024) : lidx_main_v1 (ix3 b r k) d = ix3 b r d := by idx_rfl3
theorem ridx1_eq (b : Fin 32) (r k d : Fin 1024) : ridx_main_v1 (ix3 b r k) d = ix3 b k d := by idx_rfl3

/-- The second product at (b, r, k) is the score of key k. -/
theorem ref_v1 (b : Fin 32) (r k : Fin 1024) :
    val_main_v1 (F := Ideal) x0 x1 x3 (ix3 b r k) = sc x0 x1 x3 b r k := by
  rw [val_main_v1_apply]
  unfold sc
  refine Finset.sum_congr rfl fun d _ => ?_
  rw [lidx1_eq, ridx1_eq, ref_v0]

/-! ## The mask as a number, and the masked scores -/

/-- Entry (b, r, k) of the regrouped mask sits at row-major position (b·1024 + r)·1024 + k, which is row b·1024 + r,
    column k of the flat mask. -/
theorem idx3_eq (b : Fin 32) (r k : Fin 1024) : idx_main_v3 (ix3 b r k) = ix2 (mrow b r) k :=
  funext fun a => Fin.ext (by
    match a with
    | ⟨0, _⟩ =>
      show ((b.val * 1024 + r.val) * 1024 + k.val) / 1024 = b.val * 1024 + r.val
      have := k.isLt; omega
    | ⟨1, _⟩ =>
      show ((b.val * 1024 + r.val) * 1024 + k.val) % 1024 = k.val
      have := k.isLt; omega)

/-- The converted, regrouped mask at (b, r, k) is the mask word read as a signed integer. -/
theorem ref_v3 (b : Fin 32) (r k : Fin 1024) :
    val_main_v3 (F := Ideal) x2 (ix3 b r k) = mf x2 b r k := by
  rw [val_main_v3_apply, val_main_v2_apply, idx3_eq]
  rfl

/-- The masked scores. -/
theorem ref_v4 (b : Fin 32) (r k : Fin 1024) :
    val_main_v4 (F := Ideal) x0 x1 x2 x3 (ix3 b r k) = sm x0 x1 x2 x3 b r k := by
  rw [val_main_v4_apply, ref_v1, ref_v3]
  rfl

/-! ## The row maximum -/

/-- The maximum over the keys, folded from -∞, is the supremum of the masked scores of the row. -/
theorem ref_v5 (b : Fin 32) (r : Fin 1024) :
    val_main_v5 (F := Ideal) x0 x1 x2 x3 (ix2 b r) = rmax x0 x1 x2 x3 b r := by
  have hv4 : ∀ k : Fin 1024, val_main_v4 (F := Ideal) x0 x1 x2 x3 (ix3 b r k) = sm x0 x1 x2 x3 b r k :=
    fun k => ref_v4 x0 x1 x2 x3 b r k
  unfold val_main_v5 rmax
  generalize val_main_v4 (F := Ideal) x0 x1 x2 x3 = y at hv4 ⊢
  have hR : S32x1024x1024.Reduces [2] S32x1024 := by decide
  have e := Host.reduce_eq_fold_single (s := S32x1024x1024) (t := S32x1024) (a := 2)
    (FloatOps.maximumf (F := Ideal) (φ := .f32)) y (val_main_cst (F := Ideal))
    reducesTo_S32x1024x1024_S32x1024_d2 hR h_S_ (ix2 b r)
  refine e.trans ?_
  have hf : (y ∘ hR.lift (ix2 b r)) = fun k : Fin 1024 => sm x0 x1 x2 x3 b r k := funext fun k =>
    (congrArg y (show hR.lift (ix2 b r) k = ix3 b r k by idx_rfl3)).trans (hv4 k)
  rw [hf]
  show Finset.fold max (Ideal.ofBits .f32 0xFF800000#32) (fun k : Fin 1024 => sm x0 x1 x2 x3 b r k)
    (Finset.univ : Finset (Fin 1024)) = _
  rw [Cert.MaskedSoftmax.negInf_word, Cert.MaskedSoftmax.fold_max_bot]

/-- The maximum of -∞ and the row maximum is the row maximum. -/
theorem ref_v7 (b : Fin 32) (r : Fin 1024) :
    val_main_v7 (F := Ideal) x0 x1 x2 x3 (ix2 b r) = rmax x0 x1 x2 x3 b r := by
  rw [val_main_v7_apply, val_main_v6_apply, val_main_cst_0_apply, ref_v5]
  show max (Ideal.ofBits .f32 0xFF800000#32) (rmax x0 x1 x2 x3 b r) = rmax x0 x1 x2 x3 b r
  rw [Cert.MaskedSoftmax.negInf_word]
  exact max_eq_right bot_le

end Cert.Attn

end
-- ==== Proof.RefHigh.lean ====
/-
  The upper half of the reference program, read entry by entry. Below it the program has computed, for batch b and query
  row r, the projected query, the mask as numbers, the masked scores and their row maximum; those four readings are taken
  here as hypotheses. Above them it shifts the scores by the row maximum and exponentiates, divides by the row's sum
  (a softmax), multiplies by the mask, divides again by the row's sum of the masked weights plus a small constant,
  takes the weighted sum of the context's rows, joins the result with the projected query along the columns, multiplies
  by the output weights over the 2048 joined columns and applies tanh. Each step is read at coordinates (b, r, k): a
  broadcast reads its row's entry, a sum along the last axis from a zero initial value is the plain sum, a product of
  arrays is the sum of products over the contracted axis, and a join along the columns reads its first piece below
  column 1024 and its second piece, 1024 columns less, from there on. The formulas met are those of the specification:
  the reference's normalisation of one row, the joined row and the result.
-/
import proofs.«171315_j9234179687166_2_alg».proof.Proof.RefReadP
import proofs.«171315_j9234179687166_2_alg».proof.Proof.Spec
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx Idealize.ShloMosaic.TcCoe
open Cert.ReferenceIdeal Cert.ReferenceIdeal.Gen Cert.ReferenceIdeal.Read

namespace Cert.Attn

namespace RefHigh

section Rows

variable (x0 x1 : (⟨S32x1024x1024, .f32⟩ : BufTy).Contents (Elt Ideal))
  (x2 : (⟨S32768x1024, .i32⟩ : BufTy).Contents (Elt Ideal))
  (x3 : (⟨S1024x1024, .f32⟩ : BufTy).Contents (Elt Ideal))
  (x4 : (⟨S1024x2048, .f32⟩ : BufTy).Contents (Elt Ideal))
  (L0 : ∀ (b : Fin 32) (r e : Fin 1024), val_main_v0 (F := Ideal) x0 x3 (ix3 b r e) = qv x0 x3 b r e)
  (L3 : ∀ (b : Fin 32) (r k : Fin 1024), val_main_v3 (F := Ideal) x2 (ix3 b r k) = mf x2 b r k)
  (L4 : ∀ (b : Fin 32) (r k : Fin 1024), val_main_v4 (F := Ideal) x0 x1 x2 x3 (ix3 b r k) = sm x0 x1 x2 x3 b r k)
  (L7 : ∀ (b : Fin 32) (r : Fin 1024), val_main_v7 (F := Ideal) x0 x1 x2 x3 (ix2 b r) = rmax x0 x1 x2 x3 b r)

/-- The shifted exponential of one entry. -/
abbrev pw (b : Fin 32) (r k : Fin 1024) : EReal := Ideal.exp (sm x0 x1 x2 x3 b r k - rmax x0 x1 x2 x3 b r)

/-- The softmax weight of one entry, masked. -/
abbrev wt (b : Fin 32) (r k : Fin 1024) : EReal :=
  Ideal.div (pw x0 x1 x2 x3 b r k) (∑ j : Fin 1024, pw x0 x1 x2 x3 b r j) * mf x2 b r k

include L7 in
/-- The row maximum repeated along the keys. -/
theorem v9_at (b : Fin 32) (r k : Fin 1024) :
    val_main_v9 (F := Ideal) x0 x1 x2 x3 (ix3 b r k) = rmax x0 x1 x2 x3 b r := by
  refine (val_main_v9_apply x0 x1 x2 x3 _).trans ((val_main_v8_apply x0 x1 x2 x3 _).trans ?_)
  have e : idx_main_v8 (idx_main_v9 (ix3 b r k)) = ix2 b r :=
    funext fun a => Fin.ext (by match a with | ⟨0, _⟩ => rfl | ⟨1, _⟩ => rfl)
  rw [e]
  exact L7 b r

include L4 L7 in
/-- The shifted exponentials. -/
theorem v11_at (b : Fin 32) (r k : Fin 1024) :
    val_main_v11 (F := Ideal) x0 x1 x2 x3 (ix3 b r k) = pw x0 x1 x2 x3 b r k := by
  show Ideal.exp (val_main_v4 (F := Ideal) x0 x1 x2 x3 (ix3 b r k) - val_main_v9 (F := Ideal) x0 x1 x2 x3 (ix3 b r k)) = _
  rw [L4, v9_at x0 x1 x2 x3 L7]

include L4 L7 in
/-- Their sum over the keys. -/
theorem v12_at (b : Fin 32) (r : Fin 1024) :
    val_main_v12 (F := Ideal) x0 x1 x2 x3 (ix2 b r) = ∑ k : Fin 1024, pw x0 x1 x2 x3 b r k := by
  rw [val_main_v12_apply]
  show Ideal.ofBits .f32 0x00000000#32 + _ = _
  rw [Ideal.ofBits_zero_f32, zero_add]
  refine Finset.sum_congr rfl fun k _ => ?_
  have e : idx_main_v12 (ix2 b r) k = ix3 b r k :=
    funext fun a => Fin.ext (by match a with | ⟨0, _⟩ => rfl | ⟨1, _⟩ => rfl | ⟨2, _⟩ => rfl)
  rw [e, v11_at x0 x1 x2 x3 L4 L7]

include L4 L7 in
/-- The sum repeated along the keys. -/
theorem v14_at (b : Fin 32) (r k : Fin 1024) :
    val_main_v14 (F := Ideal) x0 x1 x2 x3 (ix3 b r k) = ∑ j : Fin 1024, pw x0 x1 x2 x3 b r j := by
  refine (val_main_v14_apply x0 x1 x2 x3 _).trans ((val_main_v13_apply x0 x1 x2 x3 _).trans ?_)
  have e : idx_main_v13 (idx_main_v14 (ix3 b r k)) = ix2 b r :=
    funext fun a => Fin.ext (by match a with | ⟨0, _⟩ => rfl | ⟨1, _⟩ => rfl)
  rw [e]
  exact v12_at x0 x1 x2 x3 L4 L7 b r

include L3 L4 L7 in
/-- The masked softmax weights. -/
theorem v16_at (b : Fin 32) (r k : Fin 1024) :
    val_main_v16 (F := Ideal) x0 x1 x2 x3 (ix3 b r k) = wt x0 x1 x2 x3 b r k := by
  show Ideal.div (val_main_v11 (F := Ideal) x0 x1 x2 x3 (ix3 b r k)) (val_main_v14 (F := Ideal) x0 x1 x2 x3 (ix3 b r k))
    * val_main_v3 (F := Ideal) x2 (ix3 b r k) = _
  rw [v11_at x0 x1 x2 x3 L4 L7, v14_at x0 x1 x2 x3 L4 L7, L3]

include L3 L4 L7 in
/-- Their sum over the keys. -/
theorem v17_at (b : Fin 32) (r : Fin 1024) :
    val_main_v17 (F := Ideal) x0 x1 x2 x3 (ix2 b r) = ∑ k : Fin 1024, wt x0 x1 x2 x3 b r k := by
  rw [val_main_v17_apply]
  show Ideal.ofBits .f32 0x00000000#32 + _ = _
  rw [Ideal.ofBits_zero_f32, zero_add]
  refine Finset.sum_congr rfl fun k _ => ?_
  have e : idx_main_v17 (ix2 b r) k = ix3 b r k :=
    funext fun a => Fin.ext (by match a with | ⟨0, _⟩ => rfl | ⟨1, _⟩ => rfl | ⟨2, _⟩ => rfl)
  rw [e, v16_at x0 x1 x2 x3 L3 L4 L7]

include L3 L4 L7 in
/-- The second normaliser repeated along the keys: the sum of the masked weights plus the small constant. -/
theorem v21_at (b : Fin 32) (r k : Fin 1024) :
    val_main_v21 (F := Ideal) x0 x1 x2 x3 (ix3 b r k) = (∑ j : Fin 1024, wt x0 x1 x2 x3 b r j) + eps := by
  refine (val_main_v21_apply x0 x1 x2 x3 _).trans ?_
  show val_main_v18 (F := Ideal) x0 x1 x2 x3 (idx_main_v21 (ix3 b r k)) + val_main_v19 (F := Ideal) (idx_main_v21 (ix3 b r k)) = _
  rw [val_main_v18_apply, val_main_v19_apply]
  have e : idx_main_v18 (idx_main_v21 (ix3 b r k)) = ix2 b r :=
    funext fun a => Fin.ext (by match a with | ⟨0, _⟩ => rfl | ⟨1, _⟩ => rfl)
  rw [e, v17_at x0 x1 x2 x3 L3 L4 L7]
  rfl

include L3 L4 L7 in
/-- The renormalised weights. -/
theorem v22_at (b : Fin 32) (r k : Fin 1024) :
    val_main_v22 (F := Ideal) x0 x1 x2 x3 (ix3 b r k)
      = Ideal.div (wt x0 x1 x2 x3 b r k) ((∑ j : Fin 1024, wt x0 x1 x2 x3 b r j) + eps) := by
  show Ideal.div (val_main_v16 (F := Ideal) x0 x1 x2 x3 (ix3 b r k)) (val_main_v21 (F := Ideal) x0 x1 x2 x3 (ix3 b r k)) = _
  rw [v16_at x0 x1 x2 x3 L3 L4 L7, v21_at x0 x1 x2 x3 L3 L4 L7]

include L3 L4 L7 in
/-- The weighted sum of the context's rows: the reference's mixed context. -/
theorem v23_at (b : Fin 32) (r c : Fin 1024) :
    val_main_v23 (F := Ideal) x0 x1 x2 x3 (ix3 b r c) = rmix x0 x1 x2 x3 b r c := by
  rw [val_main_v23_apply]
  unfold rmix rRow
  refine Finset.sum_congr rfl fun k _ => ?_
  have el : lidx_main_v23 (ix3 b r c) k = ix3 b r k :=
    funext fun a => Fin.ext (by match a with | ⟨0, _⟩ => rfl | ⟨1, _⟩ => rfl | ⟨2, _⟩ => rfl)
  have er : ridx_main_v23 (ix3 b r c) k = ix3 b k c :=
    funext fun a => Fin.ext (by match a with | ⟨0, _⟩ => rfl | ⟨1, _⟩ => rfl | ⟨2, _⟩ => rfl)
  rw [el, er, v22_at x0 x1 x2 x3 L3 L4 L7]

include L0 L3 L4 L7 in
/-- The joined row: the mixed context, then the projected query. -/
theorem v24_at (b : Fin 32) (r : Fin 1024) (c : Fin 2048) :
    val_main_v24 (F := Ideal) x0 x1 x2 x3 (ix3 b r c) = comb x0 x1 x2 x3 b r c := by
  unfold val_main_v24 comb
  by_cases h : c.val < 1024
  · rw [dif_pos h]
    refine (concatenate_pair_apply_left 2 _ _ concatenates_S32x1024x1024_S32x1024x1024_S32x1024x2048_d2 (ix3 b r c) rfl
      (ix3 b r (⟨c.val, h⟩ : Fin 1024)) (fun a => by
        match a with
        | ⟨0, _⟩ => rfl
        | ⟨1, _⟩ => rfl
        | ⟨2, _⟩ => rfl)).trans ?_
    exact v23_at x0 x1 x2 x3 L3 L4 L7 b r ⟨c.val, h⟩
  · rw [dif_neg h]
    refine (concatenate_pair_apply_right 2 _ _ concatenates_S32x1024x1024_S32x1024x1024_S32x1024x2048_d2 (ix3 b r c) rfl rfl
      (ix3 b r (⟨c.val - 1024, by omega⟩ : Fin 1024)) (fun a ha => by
        match a with
        | ⟨0, _⟩ => rfl
        | ⟨1, _⟩ => rfl
        | ⟨2, _⟩ => exact absurd rfl ha) (by
        show (c.val - 1024) + 1024 = c.val
        omega)).trans ?_
    exact L0 b r ⟨c.val - 1024, by omega⟩

include L0 L3 L4 L7 in
/-- The product with the output weights over the 2048 joined columns. -/
theorem v25_at (b : Fin 32) (r e : Fin 1024) :
    val_main_v25 (F := Ideal) x0 x1 x2 x3 x4 (ix3 b r e)
      = ∑ c : Fin 2048, comb x0 x1 x2 x3 b r c * x4 (ix2 e c) := by
  rw [val_main_v25_apply]
  refine Finset.sum_congr rfl fun c _ => ?_
  have el : lidx_main_v25 (ix3 b r e) c = ix3 b r c :=
    funext fun a => Fin.ext (by match a with | ⟨0, _⟩ => rfl | ⟨1, _⟩ => rfl | ⟨2, _⟩ => rfl)
  have er : ridx_main_v25 (ix3 b r e) c = ix2 e c :=
    funext fun a => Fin.ext (by match a with | ⟨0, _⟩ => rfl | ⟨1, _⟩ => rfl)
  rw [el, er, v24_at x0 x1 x2 x3 L0 L3 L4 L7]

end Rows

end RefHigh

/-- The reference's result is the specification's: tanh of the joined row against the output weights. -/
theorem ref_high (x0 x1 : (⟨Cert.ReferenceIdeal.S32x1024x1024, .f32⟩ : BufTy).Contents (Elt Ideal))
    (x2 : (⟨Cert.ReferenceIdeal.S32768x1024, .i32⟩ : BufTy).Contents (Elt Ideal))
    (x3 : (⟨Cert.ReferenceIdeal.S1024x1024, .f32⟩ : BufTy).Contents (Elt Ideal))
    (x4 : (⟨Cert.ReferenceIdeal.S1024x2048, .f32⟩ : BufTy).Contents (Elt Ideal))
    (L0 : ∀ (b : Fin 32) (r e : Fin 1024), Cert.ReferenceIdeal.Read.val_main_v0 (F := Ideal) x0 x3 (ix3 b r e) = qv x0 x3 b r e)
    (L3 : ∀ (b : Fin 32) (r k : Fin 1024), Cert.ReferenceIdeal.Read.val_main_v3 (F := Ideal) x2 (ix3 b r k) = mf x2 b r k)
    (L4 : ∀ (b : Fin 32) (r k : Fin 1024), Cert.ReferenceIdeal.Read.val_main_v4 (F := Ideal) x0 x1 x2 x3 (ix3 b r k) = sm x0 x1 x2 x3 b r k)
    (L7 : ∀ (b : Fin 32) (r : Fin 1024), Cert.ReferenceIdeal.Read.val_main_v7 (F := Ideal) x0 x1 x2 x3 (ix2 b r) = rmax x0 x1 x2 x3 b r) :
    Cert.ReferenceIdeal.Read.val_main_v26 (F := Ideal) x0 x1 x2 x3 x4 = Gr x0 x1 x2 x3 x4 := by
  funext i
  obtain ⟨b, r, e, rfl⟩ : ∃ (b : Fin 32) (r e : Fin 1024), i = ix3 b r e := ⟨i 0, i 1, i 2, eq_ix3 i⟩
  show Ideal.tanh (val_main_v25 (F := Ideal) x0 x1 x2 x3 x4 (ix3 b r e)) = _
  rw [RefHigh.v25_at x0 x1 x2 x3 x4 L0 L3 L4 L7]
  rfl

end Cert.Attn

end
-- ==== Proof.RefIsGr.lean ====
/-
  The reference's result is `Gr` of its arguments: the lower half of the program (the projected query, the mask as a number, the
  masked scores and their row maximum) joined to the upper half (the shifted exponentials, the two normalisations, the mixing
  with the context, the joined output projection and tanh).
-/
import proofs.«171315_j9234179687166_2_alg».proof.Proof.RefLow
import proofs.«171315_j9234179687166_2_alg».proof.Proof.RefHigh

noncomputable section

open Idealize.ShloMosaic Idealize.ShloMosaic.TcCoe

namespace Cert.Attn

/-- The reference's result array, as a function of the argument arrays, is `Gr`. -/
theorem ref_is_Gr (x0 x1 : (⟨Cert.ReferenceIdeal.S32x1024x1024, .f32⟩ : BufTy).Contents (Elt Ideal))
    (x2 : (⟨Cert.ReferenceIdeal.S32768x1024, .i32⟩ : BufTy).Contents (Elt Ideal))
    (x3 : (⟨Cert.ReferenceIdeal.S1024x1024, .f32⟩ : BufTy).Contents (Elt Ideal))
    (x4 : (⟨Cert.ReferenceIdeal.S1024x2048, .f32⟩ : BufTy).Contents (Elt Ideal)) :
    Cert.ReferenceIdeal.Read.val_main_v26 (F := Ideal) x0 x1 x2 x3 x4 = Gr x0 x1 x2 x3 x4 :=
  ref_high x0 x1 x2 x3 x4 (ref_v0 x0 x3) (ref_v3 x2) (ref_v4 x0 x1 x2 x3) (ref_v7 x0 x1 x2 x3)

end Cert.Attn

end
-- ==== Proof.lean ====
/-
  The proof of `Cert.Claim`: a fused attention kernel against its array-program reference, at the ideal instance.

  Both programs compute, for batch `b` and query row `r`, with q = Q·W_inᵀ, scores s = q·Cᵀ, the mask m read as a number,
  sm = s·m, p = exp(sm − max_k sm), L = Σ_k p, A = Σ_k p·m:
      out(b, r, ·) = tanh(mix · W_out[:, :1024]ᵀ + q · W_out[:, 1024:]ᵀ).
  The kernel normalises once, after the weighted sum over the keys,   mix = (Σ_k p·m·C(b,k,·)) / (A + ε·L),
  the reference twice before it (softmax, then renormalisation after masking),
      mix = Σ_k ((p/L · m) / (A/L + ε)) · C(b,k,·),
  and the reference takes the output projection as ONE product over the 2048 joined columns where the kernel adds two products
  over 1024 columns. Splitting a finite sum needs nothing. The two normalisations agree when every quantity is a real number and
  the normaliser A + ε·L is positive: (p·m/L) / ((A + ε·L)/L) = p·m / (A + ε·L). On the extended reals a quotient by zero is +∞ for
  a positive dividend and −∞ otherwise, and there the two arrangements can differ; the precondition excludes it: the float inputs are
  finite, so every score is a real number, p > 0 and L > 0; the mask holds only 0 and 1, so A ≥ 0; and ε > 0.

  The modules: Spec (both results as scalar formulas, `Gk` in the kernel's arrangement and `Gr` in the reference's), RowMath (the
  one-row law), Bridge (`Gr = Gk` under the precondition's facts), PreFacts (those facts read off the precondition), BlockSpec and
  Payload (what one grid point stores, from its input blocks), HostPrefix (the arrays the region finds: the weights' two halves, the
  mask re-laid), BlockToArray and KernelValue (the 128 blocks tile the result array, which is `Gk` of the arguments), RefLow, RefHigh
  and RefIsGr (the reference's result is `Gr` of the arguments). The two kernel frames are the generated ones and the reference's
  comes from its generated run; the idealization rewrote no operation, so `preserves` is trivial.
-/
import proofs.«171315_j9234179687166_2_alg».proof.Defs
import proofs.«171315_j9234179687166_2_alg».proof.Proof.Gen.Kernel
import proofs.«171315_j9234179687166_2_alg».proof.Proof.Gen.Kernel.Skeleton
import proofs.«171315_j9234179687166_2_alg».proof.Proof.Gen.Kernel.Launch
import proofs.«171315_j9234179687166_2_alg».proof.Proof.Gen.Kernel.Points
import proofs.«171315_j9234179687166_2_alg».proof.Proof.Gen.Kernel.Frame
import proofs.«171315_j9234179687166_2_alg».proof.Proof.Gen.KernelIdeal
import proofs.«171315_j9234179687166_2_alg».proof.Proof.Gen.KernelIdeal.Skeleton
import proofs.«171315_j9234179687166_2_alg».proof.Proof.Gen.KernelIdeal.Launch
import proofs.«171315_j9234179687166_2_alg».proof.Proof.Gen.KernelIdeal.Points
import proofs.«171315_j9234179687166_2_alg».proof.Proof.Gen.KernelIdeal.Frame
import proofs.«171315_j9234179687166_2_alg».proof.Proof.Gen.ReferenceIdeal
import proofs.«171315_j9234179687166_2_alg».proof.Proof.Gen.Pre_finite_inputs
import proofs.«171315_j9234179687166_2_alg».proof.Proof.Gen.KernelIdeal.Value
import proofs.«171315_j9234179687166_2_alg».proof.Proof.RefRunP
import proofs.«171315_j9234179687166_2_alg».proof.Proof.RefReadP
import proofs.«171315_j9234179687166_2_alg».proof.Proof.PreFacts
import proofs.«171315_j9234179687166_2_alg».proof.Proof.Bridge
import proofs.«171315_j9234179687166_2_alg».proof.Proof.KernelValue
import proofs.«171315_j9234179687166_2_alg».proof.Proof.RefIsGr
import Idealize.ShloMosaic.Adequacy
import Idealize.ShloMosaic.Init

noncomputable section

namespace Cert.Proof

open Idealize.ShloMosaic Idealize.ShloMosaic.TcCoe Idealize.SL.Sem Cert.Attn

section Claims

variable [Cert.Kernel.Facts] [Cert.KernelIdeal.Facts] [Cert.ReferenceIdeal.Facts] [Cert.Pre_finite_inputs.Facts]

/-- The kernel as printed runs and keeps its arguments: the generated frame. -/
theorem frame_k : Cert.frame_Kernel := fun m ρ _ => Cert.Kernel.Gen.frame m ρ

/-- The idealized kernel runs and keeps its arguments: the generated frame. -/
theorem frame_ki : Cert.frame_KernelIdeal := fun m ρ _ => Cert.KernelIdeal.Gen.frame m ρ

/-- The reference runs and keeps its arguments: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The kernel's result array is `Gk` of its arguments, the reference's is `Gr` of its own, the arguments agree, and under the
    precondition's facts (real inputs, a 0/1 mask) `Gr = Gk`. -/
theorem algebraic : Cert.algebraic_KernelIdeal_ReferenceIdeal := by
  intro m ρ m' ρ' hpre hagree
  refine ⟨fun c => Gk (m ((c.tc : Thread _ _).loc Cert.KernelIdeal.main_arg0)) (m ((c.tc : Thread _ _).loc Cert.KernelIdeal.main_arg1))
      (m ((c.tc : Thread _ _).loc Cert.KernelIdeal.main_arg2)) (m ((c.tc : Thread _ _).loc Cert.KernelIdeal.main_arg3))
      (m ((c.tc : Thread _ _).loc Cert.KernelIdeal.main_arg4)), kernel_run m ρ, ?_⟩
  refine (θ_run Cert.ReferenceIdeal.defs _ _).mono (fun _ h c => ⟨(h c).1.trans ?_, (h c).2⟩)
    (Cert.ReferenceIdeal.Value.run (F := Ideal) m' ρ')
  obtain ⟨hQ, hC, hW, hM⟩ := pre_facts _ _ _ _ _ (hpre c)
  rw [Cert.ReferenceIdeal.Read.val_main_v26_eq, ref_is_Gr, (hagree c).1, (hagree c).2.1, (hagree c).2.2.1, (hagree c).2.2.2.1,
    (hagree c).2.2.2.2]
  exact Gr_eq_Gk _ _ _ _ _ hQ hC hW hM

end Claims

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
